-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.sign_bit.Statement Cert.KernelIdeal.S3000x64 .f32
  ∧ IdealRules.sign_bit.Statement Cert.KernelIdeal.S3000x64 .f32
  ∧ IdealRules.sign_bit.Statement Cert.KernelIdeal.S3000x64 .f32
  ∧ IdealRules.named_const.Statement Cert.KernelIdeal.κ "inv_3" .f32 0x3EAAAAAB#32 ((1 / 3 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v51)) (v1 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_v52) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S4000000 : Shape := ⟨1, ![4000000]⟩
abbrev S3x150000x64 : Shape := ⟨3, ![3, 150000, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S4000000 : S_.BroadcastsInDim S4000000 (![] : Fin 0 → Fin S4000000.rank)
  reducesTo_S4000000_S_d0 : S4000000.ReducesTo [0] S_
  bcast_S_S3x150000x64 : S_.BroadcastsInDim S3x150000x64 (![] : Fin 0 → Fin S3x150000x64.rank)
  reducesTo_S3x150000x64_S_d0_1_2 : S3x150000x64.ReducesTo [0, 1, 2] S_

variable [Facts]

def fn_part1 {F : FTy → Type} [FloatOps F] (main_v13 : IVec S_ 1) (main_v16 : IVec S3x150000x64 1) : IVec S_ 1 :=
  let main_c_5 : IVec S_ 1 := constantI S_ 1 1#1
  let main_v17 : IVec S_ 1 := (fun x v => Host.reduce IntOp.andi x v reducesTo_S3x150000x64_S_d0_1_2 h_S_) main_v16 main_c_5
  let main_v18 : IVec S_ 1 := andi main_v13 main_v17
  main_v18

def fn {F : FTy → Type} [FloatOps F] (main_arg0 : FVec F S100000x64 .f32) (main_arg1 : FVec F S50000x64 .f32) (main_arg2 : FVec F S4000000 .f32) (main_arg3 : FVec F S3x150000x64 .f32) (main_arg4 : IVec S4000000 32) (main_arg5 : IVec S4000000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S4000000 .f32 := Host.absf main_arg2
  let main_cst_2 : FVec F S_ .f32 := constant S_ .f32 0x7F800000#32
  let main_v10 : FVec F S4000000 .f32 := broadcastInDim S4000000 ![] bcast_S_S4000000 main_cst_2
  let main_v11 : IVec S4000000 1 := cmpf .olt main_v9 main_v10
  let main_c_3 : IVec S_ 1 := constantI S_ 1 1#1
  let main_v12 : IVec S_ 1 := (fun x v => Host.reduce IntOp.andi x v reducesTo_S4000000_S_d0 h_S_) main_v11 main_c_3
  let main_v13 : IVec S_ 1 := andi main_v8 main_v12
  let main_v14 : FVec F S3x150000x64 .f32 := Host.absf main_arg3
  let main_cst_4 : FVec F S_ .f32 := constant S_ .f32 0x7F800000#32
  let main_v15 : FVec F S3x150000x64 .f32 := broadcastInDim S3x150000x64 ![] bcast_S_S3x150000x64 main_cst_4
  let main_v16 : IVec S3x150000x64 1 := cmpf .olt main_v14 main_v15
  fn_part1 (F := F) main_v13 main_v16
-- ==== Kernel.lean ====
abbrev S100000x64 : Shape := ⟨2, ![100000, 64]⟩
abbrev S50000x64 : Shape := ⟨2, ![50000, 64]⟩
abbrev S4000000 : Shape := ⟨1, ![4000000]⟩
abbrev S3x150000x64 : Shape := ⟨3, ![3, 150000, 64]⟩
abbrev S150000x64 : Shape := ⟨2, ![150000, 64]⟩
abbrev S_ : Shape := ⟨0, ![]⟩
abbrev S4000000x1 : Shape := ⟨2, ![4000000, 1]⟩
abbrev S4000000x64 : Shape := ⟨2, ![4000000, 64]⟩
abbrev S1x150000x64 : Shape := ⟨3, ![1, 150000, 64]⟩
abbrev S3000x64 : Shape := ⟨2, ![3000, 64]⟩
abbrev S3000 : Shape := ⟨1, ![3000]⟩
abbrev S3000x1 : Shape := ⟨2, ![3000, 1]⟩

abbrev nBuf : Space → Nat
  | .hbm => 72
  | .vmem => 34
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S4000000, .f32⟩
  | .hbm, ⟨3, _⟩ => ⟨S3x150000x64, .f32⟩
  | .hbm, ⟨4, _⟩ => ⟨S4000000, .i32⟩
  | .hbm, ⟨5, _⟩ => ⟨S4000000, .i32⟩
  | .hbm, ⟨6, _⟩ => ⟨S150000x64, .f32⟩
  | .hbm, ⟨7, _⟩ => ⟨S_, .f32⟩
  | .hbm, ⟨8, _⟩ => ⟨S150000x64, .f32⟩
  | .hbm, ⟨9, _⟩ => ⟨S4000000x1, .f32⟩
  | .hbm, ⟨10, _⟩ => ⟨S_, .i32⟩
  | .hbm, ⟨11, _⟩ => ⟨S4000000, .i32⟩
  | .hbm, ⟨12, _⟩ => ⟨S4000000, .i1⟩
  | .hbm, ⟨13, _⟩ => ⟨S_, .i32⟩
  | .hbm, ⟨14, _⟩ => ⟨S4000000, .i32⟩
  | .hbm, ⟨15, _⟩ => ⟨S4000000, .i32⟩
  | .hbm, ⟨16, _⟩ => ⟨S4000000, .i32⟩
  | .hbm, ⟨17, _⟩ => ⟨S4000000x1, .i32⟩
  | .hbm, ⟨18, _⟩ => ⟨S4000000x64, .f32⟩
  | .hbm, ⟨19, _⟩ => ⟨S4000000x64, .f32⟩
  | .hbm, ⟨20, _⟩ => ⟨S4000000x64, .f32⟩
  | .hbm, ⟨21, _⟩ => ⟨S_, .f32⟩
  | .hbm, ⟨22, _⟩ => ⟨S150000x64, .f32⟩
  | .hbm, ⟨23, _⟩ => ⟨S4000000x1, .i32⟩
  | .hbm, ⟨24, _⟩ => ⟨S150000x64, .f32⟩
  | .hbm, ⟨25, _⟩ => ⟨S1x150000x64, .f32⟩
  | .hbm, ⟨26, _⟩ => ⟨S150000x64, .f32⟩
  | .hbm, ⟨27, _⟩ => ⟨S150000x64, .f32⟩
  | .hbm, ⟨28, _⟩ => ⟨S150000x64, .f32⟩
  | .hbm, ⟨29, _⟩ => ⟨S4000000x1, .f32⟩
  | .hbm, ⟨30, _⟩ => ⟨S_, .i32⟩
  | .hbm, ⟨31, _⟩ => ⟨S4000000, .i32⟩
  | .hbm, ⟨32, _⟩ => ⟨S4000000, .i1⟩
  | .hbm, ⟨33, _⟩ => ⟨S_, .i32⟩
  | .hbm, ⟨34, _⟩ => ⟨S4000000, .i32⟩
  | .hbm, ⟨35, _⟩ => ⟨S4000000, .i32⟩
  | .hbm, ⟨36, _⟩ => ⟨S4000000, .i32⟩
  | .hbm, ⟨37, _⟩ => ⟨S4000000x1, .i32⟩
  | .hbm, ⟨38, _⟩ => ⟨S4000000x64, .f32⟩
  | .hbm, ⟨39, _⟩ => ⟨S4000000x64, .f32⟩
  | .hbm, ⟨40, _⟩ => ⟨S4000000x64, .f32⟩
  | .hbm, ⟨41, _⟩ => ⟨S_, .f32⟩
  | .hbm, ⟨42, _⟩ => ⟨S150000x64, .f32⟩
  | .hbm, ⟨43, _⟩ => ⟨S4000000x1, .i32⟩
  | .hbm, ⟨44, _⟩ => ⟨S150000x64, .f32⟩
  | .hbm, ⟨45, _⟩ => ⟨S1x150000x64, .f32⟩
  | .hbm, ⟨46, _⟩ => ⟨S150000x64, .f32⟩
  | .hbm, ⟨47, _⟩ => ⟨S150000x64, .f32⟩
  | .hbm, ⟨48, _⟩ => ⟨S150000x64, .f32⟩
  | .hbm, ⟨49, _⟩ => ⟨S4000000x1, .f32⟩
  | .hbm, ⟨50, _⟩ => ⟨S_, .i32⟩
  | .hbm, ⟨51, _⟩ => ⟨S4000000, .i32⟩
  | .hbm, ⟨52, _⟩ => ⟨S4000000, .i1⟩
  | .hbm, ⟨53, _⟩ => ⟨S_, .i32⟩
  | .hbm, ⟨54, _⟩ => ⟨S4000000, .i32⟩
  | .hbm, ⟨55, _⟩ => ⟨S4000000, .i32⟩
  | .hbm, ⟨56, _⟩ => ⟨S4000000, .i32⟩
  | .hbm, ⟨57, _⟩ => ⟨S4000000x1, .i32⟩
  | .hbm, ⟨58, _⟩ => ⟨S4000000x64, .f32⟩
  | .hbm, ⟨59, _⟩ => ⟨S4000000x64, .f32⟩
  | .hbm, ⟨60, _⟩ => ⟨S4000000x64, .f32⟩
  | .hbm, ⟨61, _⟩ => ⟨S_, .f32⟩
  | .hbm, ⟨62, _⟩ => ⟨S150000x64, .f32⟩
  | .hbm, ⟨63, _⟩ => ⟨S4000000x1, .i32⟩
  | .hbm, ⟨64, _⟩ => ⟨S150000x64, .f32⟩
  | .hbm, ⟨65, _⟩ => ⟨S1x150000x64, .f32⟩
  | .hbm, ⟨66, _⟩ => ⟨S150000x64, .f32⟩
  | .hbm, ⟨67, _⟩ => ⟨S150000x64, .f32⟩
  | .hbm, ⟨68, _⟩ => ⟨S150000x64, .f32⟩
  | .hbm, ⟨69, _⟩ => ⟨S150000x64, .f32⟩
  | .hbm, ⟨70, _⟩ => ⟨S100000x64, .f32⟩
  | .hbm, ⟨71, _⟩ => ⟨S50000x64, .f32⟩
  | .local _ .vmem, ⟨0, _⟩ => ⟨S3000x64, .f32⟩
  | .local _ .vmem, ⟨1, _⟩ => ⟨S3000x64, .f32⟩
  | .local _ .vmem, ⟨2, _⟩ => ⟨S3000x64, .f32⟩
  | .local _ .vmem, ⟨3, _⟩ => ⟨S3000x64, .f32⟩
  | .local _ .vmem, ⟨4, _⟩ => ⟨S3000x64, .f32⟩
  | .local _ .vmem, ⟨5, _⟩ => ⟨S3000x64, .f32⟩
  | .local _ .vmem, ⟨6, _⟩ => ⟨S3000x64, .f32⟩
  | .local _ .vmem, ⟨7, _⟩ => ⟨S3000x64, .f32⟩
  | .local _ .vmem, ⟨8, _⟩ => ⟨S3000x64, .f32⟩
  | .local _ .vmem, ⟨9, _⟩ => ⟨S3000x64, .f32⟩
  | .local _ .vmem, ⟨10, _⟩ => ⟨S3000x64, .f32⟩
  | .local _ .vmem, ⟨11, _⟩ => ⟨S3000x64, .f32⟩
  | .local _ .vmem, ⟨12, _⟩ => ⟨S3000x64, .f32⟩
  | .local _ .vmem, ⟨13, _⟩ => ⟨S3000x64, .f32⟩
  | .local _ .vmem, ⟨14, _⟩ => ⟨S3000x64, .f32⟩
  | .local _ .vmem, ⟨15, _⟩ => ⟨S3000x64, .f32⟩
  | .local _ .vmem, ⟨16, _⟩ => ⟨S3000x64, .f32⟩
  | .local _ .vmem, ⟨17, _⟩ => ⟨S3000x64, .f32⟩
  | .local _ .vmem, ⟨18, _⟩ => ⟨S3000x64, .f32⟩
  | .local _ .vmem, ⟨19, _⟩ => ⟨S3000x64, .f32⟩
  | .local _ .vmem, ⟨20, _⟩ => ⟨S3000x64, .f32⟩
  | .local _ .vmem, ⟨21, _⟩ => ⟨S3000x64, .f32⟩
  | .local _ .vmem, ⟨22, _⟩ => ⟨S3000x64, .f32⟩
  | .local _ .vmem, ⟨23, _⟩ => ⟨S3000x64, .f32⟩
  | .local _ .vmem, ⟨24, _⟩ => ⟨S3000x64, .f32⟩
  | .local _ .vmem, ⟨25, _⟩ => ⟨S3000x64, .f32⟩
  | .local _ .vmem, ⟨26, _⟩ => ⟨S3000x64, .f32⟩
  | .local _ .vmem, ⟨27, _⟩ => ⟨S3000x64, .f32⟩
  | .local _ .vmem, ⟨28, _⟩ => ⟨S3000x64, .f32⟩
  | .local _ .vmem, ⟨29, _⟩ => ⟨S3000x64, .f32⟩
  | .local _ .vmem, ⟨30, _⟩ => ⟨S3000x64, .f32⟩
  | .local _ .vmem, ⟨31, _⟩ => ⟨S3000x64, .f32⟩
  | .local _ .vmem, ⟨32, _⟩ => ⟨S3000x64, .f32⟩
  | .local _ .vmem, ⟨33, _⟩ => ⟨S3000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17_0 : Ref sig .tc := ⟨.hbm, 27, rfl⟩
abbrev main_v17_1 : Ref sig .tc := ⟨.hbm, 28, rfl⟩
abbrev main_v18 : Ref sig .tc := ⟨.hbm, 29, rfl⟩
abbrev main_c_2 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33_0 : Ref sig .tc := ⟨.hbm, 47, rfl⟩
abbrev main_v33_1 : Ref sig .tc := ⟨.hbm, 48, rfl⟩
abbrev main_v34 : Ref sig .tc := ⟨.hbm, 49, rfl⟩
abbrev main_c_5 : Ref sig .tc := ⟨.hbm, 50, rfl⟩
abbrev main_v35 : Ref sig .tc := ⟨.hbm, 51, rfl⟩
abbrev main_v36 : Ref sig .tc := ⟨.hbm, 52, rfl⟩
abbrev main_c_6 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_7 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49_0 : Ref sig .tc := ⟨.hbm, 67, rfl⟩
abbrev main_v49_1 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg4_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29
abbrev cc3_sem0_0 : DmaSem sig := 30
abbrev cc3_sem0_1 : DmaSem sig := 31
abbrev cc3_sem1_0 : DmaSem sig := 32
abbrev cc3_sem1_1 : DmaSem sig := 33

abbrev nD : Nat := 1
abbrev τ : Topo := Topo.v7x

variable {F : FTy → Type} [BitOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S3000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S3000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S3000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S3000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S3000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S3000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S3000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S3000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S3000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S3000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

class Facts₀ : Prop where
  concatenates_S100000x64_S50000x64_S150000x64_d0 : Shape.Concatenates [S100000x64, S50000x64] S150000x64 0
  bcast_S_S150000x64 : S_.BroadcastsInDim S150000x64 (![] : Fin 0 → Fin S150000x64.rank)
  bcast_S4000000_S4000000x1_0 : S4000000.BroadcastsInDim S4000000x1 (![0] : Fin 1 → Fin S4000000x1.rank)
  bcast_S_S4000000 : S_.BroadcastsInDim S4000000 (![] : Fin 0 → Fin S4000000.rank)
  bcast_S4000000x1_S4000000x64_0_1 : S4000000x1.BroadcastsInDim S4000000x64 (![0, 1] : Fin 2 → Fin S4000000x64.rank)
  slices_S3x150000x64_S1x150000x64_0_0_0 : S3x150000x64.Slices ![0, 0, 0] S1x150000x64
  shapeCasts_S1x150000x64_S150000x64 : S1x150000x64.ShapeCasts S150000x64
  inb_S3000x64_S3000x64_0_0 : ∀ a, (![0, 0] : Fin 2 → Nat) a + S3000x64.size a ≤ S3000x64.size a
  h_S3000x64 : 0 < S3000x64.numel
  shapeCasts_S3000x64_S3000x64 : S3000x64.ShapeCasts S3000x64
  reduces_S3000x64_S3000 : S3000x64.Reduces [1] S3000
  shapeCasts_S3000_S3000x1 : S3000.ShapeCasts S3000x1
  broadcasts_S3000x1_S3000x64 : S3000x1.Broadcasts S3000x64
  slices_S3x150000x64_S1x150000x64_1_0_0 : S3x150000x64.Slices ![1, 0, 0] S1x150000x64
  slices_S3x150000x64_S1x150000x64_2_0_0 : S3x150000x64.Slices ![2, 0, 0] S1x150000x64
  slices_S150000x64_S100000x64_0_0 : S150000x64.Slices ![0, 0] S100000x64
  slices_S150000x64_S50000x64_100000_0 : S150000x64.Slices ![100000, 0] S50000x64
  gather_S150000x64_S4000000x1_S4000000x64_1_0_n_n_0_1_164_wf : GatherDims.WF S150000x64 S4000000x1 S4000000x64 [1] [0] [] [0] [] 1 ![1, 64]
  scatter_S150000x64_S4000000x1_S4000000x64_1_0_0_1_wf : ScatterDims.WF S150000x64 S4000000x1 S4000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3000x64.size a ≤ S150000x64.size a
  hwx0_0 : ∀ i : grid0.Coords, EltTy.bits .f32 = 32 ∨ (Rect.block (s := S150000x64) S3000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3000x64.size a ≤ S150000x64.size a
  hwx0_1 : ∀ i : grid0.Coords, EltTy.bits .f32 = 32 ∨ (Rect.block (s := S150000x64) S3000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3000x64.size a ≤ S150000x64.size a
  hwx0_2 : ∀ i : grid0.Coords, EltTy.bits .f32 = 32 ∨ (Rect.block (s := S150000x64) S3000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3000x64.size a ≤ S150000x64.size a
  hwx0_3 : ∀ i : grid0.Coords, EltTy.bits .f32 = 32 ∨ (Rect.block (s := S150000x64) S3000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S3000x64.size a ≤ S150000x64.size a
  hwx0_4 : ∀ i : grid0.Coords, EltTy.bits .f32 = 32 ∨ (Rect.block (s := S150000x64) S3000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3000x64.size a ≤ S150000x64.size a
  hwx1_0 : ∀ i : grid1.Coords, EltTy.bits .f32 = 32 ∨ (Rect.block (s := S150000x64) S3000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3000x64.size a ≤ S150000x64.size a
  hwx1_1 : ∀ i : grid1.Coords, EltTy.bits .f32 = 32 ∨ (Rect.block (s := S150000x64) S3000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3000x64.size a ≤ S150000x64.size a
  hwx1_2 : ∀ i : grid1.Coords, EltTy.bits .f32 = 32 ∨ (Rect.block (s := S150000x64) S3000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S3000x64.size a ≤ S150000x64.size a
  hwx1_3 : ∀ i : grid1.Coords, EltTy.bits .f32 = 32 ∨ (Rect.block (s := S150000x64) S3000x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S3000x64.size a ≤ S150000x64.size a
  hwx1_4 : ∀ i : grid1.Coords, EltTy.bits .f32 = 32 ∨ (Rect.block (s := S150000x64) S3000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3000x64.size a ≤ S150000x64.size a
  hwx2_0 : ∀ i : grid2.Coords, EltTy.bits .f32 = 32 ∨ (Rect.block (s := S150000x64) S3000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S3000x64.size a ≤ S150000x64.size a
  hwx2_1 : ∀ i : grid2.Coords, EltTy.bits .f32 = 32 ∨ (Rect.block (s := S150000x64) S3000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S3000x64.size a ≤ S150000x64.size a
  hwx2_2 : ∀ i : grid2.Coords, EltTy.bits .f32 = 32 ∨ (Rect.block (s := S150000x64) S3000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S3000x64.size a ≤ S150000x64.size a
  hwx2_3 : ∀ i : grid2.Coords, EltTy.bits .f32 = 32 ∨ (Rect.block (s := S150000x64) S3000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S3000x64.size a ≤ S150000x64.size a
  hwx2_4 : ∀ i : grid2.Coords, EltTy.bits .f32 = 32 ∨ (Rect.block (s := S150000x64) S3000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S3000x64.size a ≤ S150000x64.size a
  hwx3_0 : ∀ i : grid3.Coords, EltTy.bits .f32 = 32 ∨ (Rect.block (s := S150000x64) S3000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S3000x64.size a ≤ S150000x64.size a
  hwx3_1 : ∀ i : grid3.Coords, EltTy.bits .f32 = 32 ∨ (Rect.block (s := S150000x64) S3000x64.size (cc3_transform_1 i) (hinb3_1 i)).WholeWords (EltTy.packing .f32)

variable [Facts₀]

def gather_S150000x64_S4000000x1_S4000000x64_1_0_n_n_0_1_164 : GatherDims S150000x64 S4000000x1 S4000000x64 where
  offsetDims := [1]
  collapsedSliceDims := [0]
  operandBatchingDims := []
  startIndicesBatchingDims := []
  startIndexMap := [0]
  indexVectorDim := 1
  sliceSizes := ![1, 64]
  wf := gather_S150000x64_S4000000x1_S4000000x64_1_0_n_n_0_1_164_wf
def scatter_S150000x64_S4000000x1_S4000000x64_1_0_0_1 : ScatterDims S150000x64 S4000000x1 S4000000x64 where
  updateWindowDims := [1]
  insertedWindowDims := [0]
  scatterDimsToOperandDims := [0]
  indexVectorDim := 1
  wf := scatter_S150000x64_S4000000x1_S4000000x64_1_0_0_1_wf

abbrev win0_0 : Pipeline.Window sig grid0 :=
  Pipeline.Window.ofSpec (Memref.whole main_v14) S3000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S3000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S3000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17_0) S3000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v17_1) S3000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v30) S3000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S3000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17_1) S3000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v33_0) S3000x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v33_1) S3000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v46) S3000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S3000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v33_1) S3000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v49_0) S3000x64.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v49_1) S3000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v49_1) S3000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v50) S3000x64.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S4000000 : Shape := ⟨1, ![4000000]⟩
abbrev S3x150000x64 : Shape := ⟨3, ![3, 150000, 64]⟩
abbrev S150000x64 : Shape := ⟨2, ![150000, 64]⟩
abbrev S_ : Shape := ⟨0, ![]⟩
abbrev S4000000x1 : Shape := ⟨2, ![4000000, 1]⟩
abbrev S4000000x64 : Shape := ⟨2, ![4000000, 64]⟩
abbrev S1x150000x64 : Shape := ⟨3, ![1, 150000, 64]⟩
abbrev S150000 : Shape := ⟨1, ![150000]⟩
abbrev S150000x1 : Shape := ⟨2, ![150000, 1]⟩

abbrev nBuf : Space → Nat
  | .hbm => 119
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S4000000, .f32⟩
  | .hbm, ⟨3, _⟩ => ⟨S3x150000x64, .f32⟩
  | .hbm, ⟨4, _⟩ => ⟨S4000000, .i32⟩
  | .hbm, ⟨5, _⟩ => ⟨S4000000, .i32⟩
  | .hbm, ⟨6, _⟩ => ⟨S150000x64, .f32⟩
  | .hbm, ⟨7, _⟩ => ⟨S_, .f32⟩
  | .hbm, ⟨8, _⟩ => ⟨S150000x64, .f32⟩
  | .hbm, ⟨9, _⟩ => ⟨S4000000x1, .f32⟩
  | .hbm, ⟨10, _⟩ => ⟨S_, .i32⟩
  | .hbm, ⟨11, _⟩ => ⟨S4000000, .i32⟩
  | .hbm, ⟨12, _⟩ => ⟨S4000000, .i1⟩
  | .hbm, ⟨13, _⟩ => ⟨S_, .i32⟩
  | .hbm, ⟨14, _⟩ => ⟨S4000000, .i32⟩
  | .hbm, ⟨15, _⟩ => ⟨S4000000, .i32⟩
  | .hbm, ⟨16, _⟩ => ⟨S4000000, .i32⟩
  | .hbm, ⟨17, _⟩ => ⟨S4000000x1, .i32⟩
  | .hbm, ⟨18, _⟩ => ⟨S4000000x64, .f32⟩
  | .hbm, ⟨19, _⟩ => ⟨S4000000x64, .f32⟩
  | .hbm, ⟨20, _⟩ => ⟨S4000000x64, .f32⟩
  | .hbm, ⟨21, _⟩ => ⟨S_, .f32⟩
  | .hbm, ⟨22, _⟩ => ⟨S150000x64, .f32⟩
  | .hbm, ⟨23, _⟩ => ⟨S4000000x1, .i32⟩
  | .hbm, ⟨24, _⟩ => ⟨S150000x64, .f32⟩
  | .hbm, ⟨25, _⟩ => ⟨S1x150000x64, .f32⟩
  | .hbm, ⟨26, _⟩ => ⟨S150000x64, .f32⟩
  | .hbm, ⟨27, _⟩ => ⟨S150000x64, .f32⟩
  | .hbm, ⟨28, _⟩ => ⟨S_, .f32⟩
  | .hbm, ⟨29, _⟩ => ⟨S150000, .f32⟩
  | .hbm, ⟨30, _⟩ => ⟨S150000x1, .f32⟩
  | .hbm, ⟨31, _⟩ => ⟨S150000x1, .f32⟩
  | .hbm, ⟨32, _⟩ => ⟨S_, .f32⟩
  | .hbm, ⟨33, _⟩ => ⟨S150000x1, .f32⟩
  | .hbm, ⟨34, _⟩ => ⟨S150000x1, .f32⟩
  | .hbm, ⟨35, _⟩ => ⟨S150000x64, .f32⟩
  | .hbm, ⟨36, _⟩ => ⟨S150000x64, .f32⟩
  | .hbm, ⟨37, _⟩ => ⟨S150000x64, .f32⟩
  | .hbm, ⟨38, _⟩ => ⟨S150000x64, .f32⟩
  | .hbm, ⟨39, _⟩ => ⟨S_, .f32⟩
  | .hbm, ⟨40, _⟩ => ⟨S150000x64, .f32⟩
  | .hbm, ⟨41, _⟩ => ⟨S150000x64, .f32⟩
  | .hbm, ⟨42, _⟩ => ⟨S150000x64, .f32⟩
  | .hbm, ⟨43, _⟩ => ⟨S150000x64, .f32⟩
  | .hbm, ⟨44, _⟩ => ⟨S4000000x1, .f32⟩
  | .hbm, ⟨45, _⟩ => ⟨S_, .i32⟩
  | .hbm, ⟨46, _⟩ => ⟨S4000000, .i32⟩
  | .hbm, ⟨47, _⟩ => ⟨S4000000, .i1⟩
  | .hbm, ⟨48, _⟩ => ⟨S_, .i32⟩
  | .hbm, ⟨49, _⟩ => ⟨S4000000, .i32⟩
  | .hbm, ⟨50, _⟩ => ⟨S4000000, .i32⟩
  | .hbm, ⟨51, _⟩ => ⟨S4000000, .i32⟩
  | .hbm, ⟨52, _⟩ => ⟨S4000000x1, .i32⟩
  | .hbm, ⟨53, _⟩ => ⟨S4000000x64, .f32⟩
  | .hbm, ⟨54, _⟩ => ⟨S4000000x64, .f32⟩
  | .hbm, ⟨55, _⟩ => ⟨S4000000x64, .f32⟩
  | .hbm, ⟨56, _⟩ => ⟨S_, .f32⟩
  | .hbm, ⟨57, _⟩ => ⟨S150000x64, .f32⟩
  | .hbm, ⟨58, _⟩ => ⟨S4000000x1, .i32⟩
  | .hbm, ⟨59, _⟩ => ⟨S150000x64, .f32⟩
  | .hbm, ⟨60, _⟩ => ⟨S1x150000x64, .f32⟩
  | .hbm, ⟨61, _⟩ => ⟨S150000x64, .f32⟩
  | .hbm, ⟨62, _⟩ => ⟨S150000x64, .f32⟩
  | .hbm, ⟨63, _⟩ => ⟨S_, .f32⟩
  | .hbm, ⟨64, _⟩ => ⟨S150000, .f32⟩
  | .hbm, ⟨65, _⟩ => ⟨S150000x1, .f32⟩
  | .hbm, ⟨66, _⟩ => ⟨S150000x1, .f32⟩
  | .hbm, ⟨67, _⟩ => ⟨S_, .f32⟩
  | .hbm, ⟨68, _⟩ => ⟨S150000x1, .f32⟩
  | .hbm, ⟨69, _⟩ => ⟨S150000x1, .f32⟩
  | .hbm, ⟨70, _⟩ => ⟨S150000x64, .f32⟩
  | .hbm, ⟨71, _⟩ => ⟨S150000x64, .f32⟩
  | .hbm, ⟨72, _⟩ => ⟨S150000x64, .f32⟩
  | .hbm, ⟨73, _⟩ => ⟨S150000x64, .f32⟩
  | .hbm, ⟨74, _⟩ => ⟨S_, .f32⟩
  | .hbm, ⟨75, _⟩ => ⟨S150000x64, .f32⟩
  | .hbm, ⟨76, _⟩ => ⟨S150000x64, .f32⟩
  | .hbm, ⟨77, _⟩ => ⟨S150000x64, .f32⟩
  | .hbm, ⟨78, _⟩ => ⟨S150000x64, .f32⟩
  | .hbm, ⟨79, _⟩ => ⟨S4000000x1, .f32⟩
  | .hbm, ⟨80, _⟩ => ⟨S_, .i32⟩
  | .hbm, ⟨81, _⟩ => ⟨S4000000, .i32⟩
  | .hbm, ⟨82, _⟩ => ⟨S4000000, .i1⟩
  | .hbm, ⟨83, _⟩ => ⟨S_, .i32⟩
  | .hbm, ⟨84, _⟩ => ⟨S4000000, .i32⟩
  | .hbm, ⟨85, _⟩ => ⟨S4000000, .i32⟩
  | .hbm, ⟨86, _⟩ => ⟨S4000000, .i32⟩
  | .hbm, ⟨87, _⟩ => ⟨S4000000x1, .i32⟩
  | .hbm, ⟨88, _⟩ => ⟨S4000000x64, .f32⟩
  | .hbm, ⟨89, _⟩ => ⟨S4000000x64, .f32⟩
  | .hbm, ⟨90, _⟩ => ⟨S4000000x64, .f32⟩
  | .hbm, ⟨91, _⟩ => ⟨S_, .f32⟩
  | .hbm, ⟨92, _⟩ => ⟨S150000x64, .f32⟩
  | .hbm, ⟨93, _⟩ => ⟨S4000000x1, .i32⟩
  | .hbm, ⟨94, _⟩ => ⟨S150000x64, .f32⟩
  | .hbm, ⟨95, _⟩ => ⟨S1x150000x64, .f32⟩
  | .hbm, ⟨96, _⟩ => ⟨S150000x64, .f32⟩
  | .hbm, ⟨97, _⟩ => ⟨S150000x64, .f32⟩
  | .hbm, ⟨98, _⟩ => ⟨S_, .f32⟩
  | .hbm, ⟨99, _⟩ => ⟨S150000, .f32⟩
  | .hbm, ⟨100, _⟩ => ⟨S150000x1, .f32⟩
  | .hbm, ⟨101, _⟩ => ⟨S150000x1, .f32⟩
  | .hbm, ⟨102, _⟩ => ⟨S_, .f32⟩
  | .hbm, ⟨103, _⟩ => ⟨S150000x1, .f32⟩
  | .hbm, ⟨104, _⟩ => ⟨S150000x1, .f32⟩
  | .hbm, ⟨105, _⟩ => ⟨S150000x64, .f32⟩
  | .hbm, ⟨106, _⟩ => ⟨S150000x64, .f32⟩
  | .hbm, ⟨107, _⟩ => ⟨S150000x64, .f32⟩
  | .hbm, ⟨108, _⟩ => ⟨S150000x64, .f32⟩
  | .hbm, ⟨109, _⟩ => ⟨S_, .f32⟩
  | .hbm, ⟨110, _⟩ => ⟨S150000x64, .f32⟩
  | .hbm, ⟨111, _⟩ => ⟨S150000x64, .f32⟩
  | .hbm, ⟨112, _⟩ => ⟨S150000x64, .f32⟩
  | .hbm, ⟨113, _⟩ => ⟨S150000x64, .f32⟩
  | .hbm, ⟨114, _⟩ => ⟨S_, .f32⟩
  | .hbm, ⟨115, _⟩ => ⟨S150000x64, .f32⟩
  | .hbm, ⟨116, _⟩ => ⟨S150000x64, .f32⟩
  | .hbm, ⟨117, _⟩ => ⟨S100000x64, .f32⟩
  | .hbm, ⟨118, _⟩ => ⟨S50000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_cst : Ref sig .tc := ⟨.hbm, 28, rfl⟩
abbrev main_call0_v1 : Ref sig .tc := ⟨.hbm, 29, rfl⟩
abbrev main_call0_v2 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_4 : Ref sig .tc := ⟨.hbm, 45, rfl⟩
abbrev main_v29 : Ref sig .tc := ⟨.hbm, 46, rfl⟩
abbrev main_v30 : Ref sig .tc := ⟨.hbm, 47, rfl⟩
abbrev main_c_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_call1_v0 : Ref sig .tc := ⟨.hbm, 62, rfl⟩
abbrev main_call1_cst : Ref sig .tc := ⟨.hbm, 63, rfl⟩
abbrev main_call1_v1 : Ref sig .tc := ⟨.hbm, 64, rfl⟩
abbrev main_call1_v2 : Ref sig .tc := ⟨.hbm, 65, rfl⟩
abbrev main_v43 : Ref sig .tc := ⟨.hbm, 66, rfl⟩
abbrev main_cst_7 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_8 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_c_9 : Ref sig .tc := ⟨.hbm, 80, rfl⟩
abbrev main_v55 : Ref sig .tc := ⟨.hbm, 81, rfl⟩
abbrev main_v56 : Ref sig .tc := ⟨.hbm, 82, rfl⟩
abbrev main_c_10 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_11 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_call2_v0 : Ref sig .tc := ⟨.hbm, 97, rfl⟩
abbrev main_call2_cst : Ref sig .tc := ⟨.hbm, 98, rfl⟩
abbrev main_call2_v1 : Ref sig .tc := ⟨.hbm, 99, rfl⟩
abbrev main_call2_v2 : Ref sig .tc := ⟨.hbm, 100, rfl⟩
abbrev main_v69 : Ref sig .tc := ⟨.hbm, 101, rfl⟩
abbrev main_cst_12 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_13 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_14 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩

abbrev nD : Nat := 1
abbrev τ : Topo := Topo.v7x

variable {F : FTy → Type} [FloatOps F]

class Facts₀ : Prop where
  concatenates_S100000x64_S50000x64_S150000x64_d0 : Shape.Concatenates [S100000x64, S50000x64] S150000x64 0
  bcast_S_S150000x64 : S_.BroadcastsInDim S150000x64 (![] : Fin 0 → Fin S150000x64.rank)
  bcast_S4000000_S4000000x1_0 : S4000000.BroadcastsInDim S4000000x1 (![0] : Fin 1 → Fin S4000000x1.rank)
  bcast_S_S4000000 : S_.BroadcastsInDim S4000000 (![] : Fin 0 → Fin S4000000.rank)
  bcast_S4000000x1_S4000000x64_0_1 : S4000000x1.BroadcastsInDim S4000000x64 (![0, 1] : Fin 2 → Fin S4000000x64.rank)
  slices_S3x150000x64_S1x150000x64_0_0_0 : S3x150000x64.Slices ![0, 0, 0] S1x150000x64
  shapeCasts_S1x150000x64_S150000x64 : S1x150000x64.ShapeCasts S150000x64
  reducesTo_S150000x64_S150000_d1 : S150000x64.ReducesTo [1] S150000
  h_S_ : 0 < S_.numel
  bcast_S150000_S150000x1_0 : S150000.BroadcastsInDim S150000x1 (![0] : Fin 1 → Fin S150000x1.rank)
  bcast_S_S150000x1 : S_.BroadcastsInDim S150000x1 (![] : Fin 0 → Fin S150000x1.rank)
  bcast_S150000x1_S150000x64_0_1 : S150000x1.BroadcastsInDim S150000x64 (![0, 1] : Fin 2 → Fin S150000x64.rank)
  slices_S3x150000x64_S1x150000x64_1_0_0 : S3x150000x64.Slices ![1, 0, 0] S1x150000x64
  slices_S3x150000x64_S1x150000x64_2_0_0 : S3x150000x64.Slices ![2, 0, 0] S1x150000x64
  slices_S150000x64_S100000x64_0_0 : S150000x64.Slices ![0, 0] S100000x64
  slices_S150000x64_S50000x64_100000_0 : S150000x64.Slices ![100000, 0] S50000x64
  gather_S150000x64_S4000000x1_S4000000x64_1_0_n_n_0_1_164_wf : GatherDims.WF S150000x64 S4000000x1 S4000000x64 [1] [0] [] [0] [] 1 ![1, 64]
  scatter_S150000x64_S4000000x1_S4000000x64_1_0_0_1_wf : ScatterDims.WF S150000x64 S4000000x1 S4000000x64 [1] [0] [0] 1

variable [Facts₀]

def gather_S150000x64_S4000000x1_S4000000x64_1_0_n_n_0_1_164 : GatherDims S150000x64 S4000000x1 S4000000x64 where
  offsetDims := [1]
  collapsedSliceDims := [0]
  operandBatchingDims := []
  startIndicesBatchingDims := []
  startIndexMap := [0]
  indexVectorDim := 1
  sliceSizes := ![1, 64]
  wf := gather_S150000x64_S4000000x1_S4000000x64_1_0_n_n_0_1_164_wf
def scatter_S150000x64_S4000000x1_S4000000x64_1_0_0_1 : ScatterDims S150000x64 S4000000x1 S4000000x64 where
  updateWindowDims := [1]
  insertedWindowDims := [0]
  scatterDimsToOperandDims := [0]
  indexVectorDim := 1
  wf := scatter_S150000x64_S4000000x1_S4000000x64_1_0_0_1_wf

class Facts : Prop extends Facts₀ where

variable [Facts]
-- ==== Proof.NamedRun.lean ====
/-
  The idealized kernel's run, with its two results named.

  Every weakly fair execution of the program terminates, nothing faulting, and ends with every buffer at the contents
  the program's eight segments leave, one after the other, from the launch memory: a stretch of host operations, the
  first layer's kernel, a stretch, the second layer's kernel, a stretch, the third layer's kernel, the mean's kernel, and
  the two slices. So the two results end at those last contents read at the results' buffers, and the six arguments
  end as they were launched.
-/
import proofs.«167419_j51488067944789_1_alg».proof.Proof.Patched.KernelIdealFrame

set_option maxRecDepth 16384

noncomputable section

namespace Cert.KernelIdeal.NamedRun

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- THE RUN: the results at the last segment's contents, the arguments as launched. -/
theorem run : θ_run defs (onTc (τ := τ) (main (F := Ideal))) ⟨m, fun _ => 0, ρ⟩ (fun r => ∀ c : Dev nD,
      r.2.mem ((c.tc : Thread nD τ).loc main_v51) = W8 m ρ c (Proc.devRef .tc main_v51)
      ∧ r.2.mem ((c.tc : Thread nD τ).loc main_v52) = W8 m ρ c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v51 (by decide)),
       h c _ (mem_uc main_v52 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.NamedRun

end
-- ==== Proof.LibKeepdims.lean ====
/-
  General lemmas: the "keepdims" column forms of a rank-2 array read at an index.
  A vector of length `n` cast to an `[n, 1]` column, and an `[n, 1]` column broadcast along its unit axis to
  `[n, b]`, each read at an index built with `ix2`; and the index a reduction over the last axis of an `[n, b]`
  array inserts.
-/
import Idealize.ShloMosaic.Lib.ValueIdx
import Idealize.ShloMosaic.Lib.Pipeline.Value
import Idealize.ShloMosaic.Lib.ValueLayout

noncomputable section

namespace Keepdims

open Idealize.ShloMosaic Idealize.ShloMosaic.ValueIdx

variable {α : Type}

/-- An `[n, 1]` column broadcast to `[n, b]` reads, at `(p, j)`, the column at `p`. -/
theorem broadcastTo_a1_ab_apply {n b : ℕ} (v : (⟨2, ![n, 1]⟩ : Shape).Idx → α) (h : (⟨2, ![n, 1]⟩ : Shape).Broadcasts ⟨2, ![n, b]⟩)
    (p : Fin n) (j : Fin b) : broadcastTo ⟨2, ![n, b]⟩ v h (ix2 p j) = v (ix2 p (0 : Fin 1)) := by
  refine broadcastTo_apply v h (ix2 p j) (ix2 p (0 : Fin 1)) fun ax => ?_
  match ax with
  | ⟨0, _⟩ =>
    show p.val = if n = 1 then 0 else p.val
    split
    · have := p.isLt; omega
    · rfl
  | ⟨1, _⟩ => rfl

/-- A length-`n` vector cast to an `[n, 1]` column reads, at `(p, 0)`, the vector at `p`. -/
theorem shapeCast_a_a1_apply {n : ℕ} (v : (⟨1, ![n]⟩ : Shape).Idx → α) (h : (⟨1, ![n]⟩ : Shape).ShapeCasts ⟨2, ![n, 1]⟩)
    (p : Fin n) : shapeCast ⟨2, ![n, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

end Keepdims

end
-- ==== Proof.PerturbScalar.lean ====
/-
  One propagation layer, entry by entry, on the extended reals.

  A layer takes the propagated table (the sparse product of the previous embeddings) and that layer's noise
  table. An entry `s` of the propagated table, the entry `z` of the noise table at the same place, and the sum `n`
  of the squares of the noise row `z` lies in, give the layer's new embedding entry

      s + (sign s · (z / max (√n, ε))) · δ

  where ε is the floor under the row norm and δ the perturbation step, the two float words that both programs
  carry. The sign is −1, 0 or 1 by the order, and ±1 at the infinities.

  Also here: the float word 3.0 denotes the real 3, so dividing by it is multiplying by the rational 1/3 — on every
  extended real, the infinities included. That is the one place where the two programs spell the mean of the three
  layers differently.
-/
import Idealize.ShloMosaic.PureOps.Ideal
import Idealize.ShloMosaic.PureOps.Ideal.Laws

noncomputable section

namespace Perturb

open Idealize.ShloMosaic

/-- A layer's new embedding entry from the propagated entry `s`, the noise entry `z` and the sum of squares `n` of
    `z`'s noise row: the noise row is scaled to unit length (its norm kept above the floor ε), given `s`'s sign,
    scaled by the step δ, and added to `s`. -/
def entry (s z n : EReal) : EReal :=
  s + Ideal.sign s * Ideal.div z (max (Ideal.sqrt n) (Ideal.ofBits .f32 0x2B8CBCCC#32)) * Ideal.ofBits .f32 0x3DCCCCCD#32

/-- The float word 3.0 denotes the real number 3. -/
theorem ofBits_three : Ideal.ofBits .f32 0x40400000#32 = ((3 : ℝ) : EReal) := by
  simp [Ideal.ofBits, Ideal.ieee, -EReal.coe_mul]; norm_num

/-- Dividing by the word 3.0 is multiplying by the rational 1/3, on every extended real. -/
theorem div_three (x : EReal) : Ideal.div x (Ideal.ofBits .f32 0x40400000#32) = x * ((1 / 3 : ℝ) : EReal) := by
  rw [ofBits_three]; exact Ideal.div_coe (by norm_num) x

end Perturb

end
-- ==== Proof.LayerBlock.lean ====
/-
  What the layer kernel's body stores, read at one entry of its block.

  A block is 3000 consecutive rows of the 150000 × 64 tables, every row whole (all 64 columns). The body loads the
  block of the propagated table, the block of the layer's noise table and the block of the running sum, and stores
  two blocks: the new embeddings and the running sum plus the new embeddings. An entry (p, q) of the new
  embeddings depends on the propagated entry at (p, q), the noise entry at (p, q) and the whole noise row p — through
  the sum of that row's squares, taken over the row's 64 lanes — and is `Perturb.entry` of those three. The body's
  sign (±1 by comparison with zero, kept only where the entry is not zero, the entry itself where it is) is the sign
  of the entry by the order.

  The three layers run the same body. The last kernel's body stores its block scaled by the named constant, which
  denotes the rational 1/3.
-/
import proofs.«167419_j51488067944789_1_alg».proof.Proof.Gen.KernelIdeal.Skeleton
import proofs.«167419_j51488067944789_1_alg».proof.Proof.LibKeepdims
import proofs.«167419_j51488067944789_1_alg».proof.Proof.PerturbScalar
import Idealize.ShloMosaic.Lib.ValueIdx
import Idealize.ShloMosaic.Lib.Pipeline.Value
import Idealize.ShloMosaic.PureOps.Ideal.Laws
import Idealize.ShloMosaic.PureOps.IdealRules

noncomputable section

namespace Cert.KernelIdeal.LayerBlock

open Cert.KernelIdeal Cert.KernelIdeal.Gen Idealize.ShloMosaic Idealize.ShloMosaic.ValueIdx

/-- The lane sum of a block row's squares: the sum over the row's 64 entries. -/
theorem rowSq (x : FVec Ideal S3000x64 .f32) (hφ : FKind.Formats .f32)
    (hacc : (0x00000000#32 : BitVec 32) = 0x00000000#32) (p : Fin 3000) :
    multiReduction .add [1] S3000 (mulf x x) 0x00000000#32 reduces_S3000x64_S3000 hφ hacc (ix1 p)
      = ∑ k : Fin 64, x (ix2 p k) * x (ix2 p k) := by
  refine (Ideal.multiReduction_add_single (mulf x x) 0x00000000#32 reduces_S3000x64_S3000 hφ hacc (ix1 p)).trans ?_
  refine Finset.sum_congr rfl fun k _ => ?_
  have e : reduces_S3000x64_S3000.lift (ix1 p) k = ix2 p k :=
    funext fun a => Fin.ext (by match a with | ⟨0, _⟩ => rfl | ⟨1, _⟩ => rfl)
  exact congrArg (fun i => x i * x i) e

/-- The row norm kept above the floor, as a column, spread along the row: at entry (p, q) it is the larger of the
    square root of row p's sum of squares and the floor. -/
theorem normCol (x : FVec Ideal S3000x64 .f32) (hφ : FKind.Formats .f32)
    (hacc : (0x00000000#32 : BitVec 32) = 0x00000000#32) (p : Fin 3000) (q : Fin 64) :
    broadcastTo S3000x64
        (maximumf (sqrt (shapeCast S3000x1
            (multiReduction .add [1] S3000 (mulf x x) 0x00000000#32 reduces_S3000x64_S3000 hφ hacc) shapeCasts_S3000_S3000x1))
          (broadcast S3000x1 (FloatOps.ofBits .f32 0x2B8CBCCC#32)))
        broadcasts_S3000x1_S3000x64 (ix2 p q)
      = max (Ideal.sqrt (∑ k : Fin 64, x (ix2 p k) * x (ix2 p k))) (Ideal.ofBits .f32 0x2B8CBCCC#32) := by
  refine (Keepdims.broadcastTo_a1_ab_apply _ broadcasts_S3000x1_S3000x64 p q).trans ?_
  show max (Ideal.sqrt (shapeCast S3000x1 _ shapeCasts_S3000_S3000x1 (ix2 p (0 : Fin 1)))) _ = _
  rw [Keepdims.shapeCast_a_a1_apply _ shapeCasts_S3000_S3000x1 p, rowSq x hφ hacc p]
  rfl

/-- THE NEW EMBEDDINGS' BLOCK at entry (p, q): `Perturb.entry` of the propagated entry, the noise entry and the
    noise row's sum of squares. -/
theorem newEmb_apply (x0 x1 : Vec Ideal S3000x64 .f32) (p : Fin 3000) (q : Fin 64) :
    k0_pay1 (F := Ideal) x0 x1 (ix2 p q)
      = Perturb.entry (x0 (ix2 p q)) (x1 (ix2 p q)) (∑ k : Fin 64, x1 (ix2 p k) * x1 (ix2 p k)) := by
  unfold k0_pay1
  dsimp only
  rw [shapeCast_self x0 shapeCasts_S3000x64_S3000x64, shapeCast_self x1 shapeCasts_S3000x64_S3000x64]
  unfold Perturb.entry
  show x0 (ix2 p q) + (Scalar.select _ _ _ * Ideal.div (x1 (ix2 p q)) (broadcastTo S3000x64 _ broadcasts_S3000x1_S3000x64 (ix2 p q))) * _ = _
  rw [normCol x1 _ _ p q]
  exact congrArg (fun s => x0 (ix2 p q) + s * Ideal.div (x1 (ix2 p q)) (max (Ideal.sqrt (∑ k : Fin 64, x1 (ix2 p k) * x1 (ix2 p k))) (Ideal.ofBits .f32 0x2B8CBCCC#32)) * Ideal.ofBits .f32 0x3DCCCCCD#32)
    (Ideal.jnp_sign_eq_sign_f32 (x0 (ix2 p q)))

/-- THE RUNNING SUM'S BLOCK at entry (p, q): the sum so far plus the new embedding entry. -/
theorem newSum_apply (x0 x1 x2 : Vec Ideal S3000x64 .f32) (p : Fin 3000) (q : Fin 64) :
    k0_pay2 (F := Ideal) x0 x1 x2 (ix2 p q)
      = x2 (ix2 p q) + Perturb.entry (x0 (ix2 p q)) (x1 (ix2 p q)) (∑ k : Fin 64, x1 (ix2 p k) * x1 (ix2 p k)) := by
  unfold k0_pay2
  rw [shapeCast_self x2 shapeCasts_S3000x64_S3000x64]
  exact congrArg (x2 (ix2 p q) + ·) (newEmb_apply x0 x1 p q)

/-- The second and third layers store what the first does of their own blocks. -/
theorem newEmb1_eq (x0 x1 : Vec Ideal S3000x64 .f32) : k1_pay1 (F := Ideal) x0 x1 = k0_pay1 (F := Ideal) x0 x1 := rfl
theorem newSum1_eq (x0 x1 x2 : Vec Ideal S3000x64 .f32) : k1_pay2 (F := Ideal) x0 x1 x2 = k0_pay2 (F := Ideal) x0 x1 x2 := rfl
theorem newEmb2_eq (x0 x1 : Vec Ideal S3000x64 .f32) : k2_pay1 (F := Ideal) x0 x1 = k0_pay1 (F := Ideal) x0 x1 := rfl
theorem newSum2_eq (x0 x1 x2 : Vec Ideal S3000x64 .f32) : k2_pay2 (F := Ideal) x0 x1 x2 = k0_pay2 (F := Ideal) x0 x1 x2 := rfl

/-- The named constant of the last kernel denotes the rational 1/3. -/
theorem third : Named.named (F := Ideal) Cert.KernelIdeal.κ "inv_3" (φ := .f32) 0x3EAAAAAB#32 = ((1 / 3 : ℝ) : EReal) :=
  IdealRules.named_const.ideal_named_scalar _ _ _ _ rfl

/-- THE MEAN'S BLOCK at an entry: the running sum's entry times 1/3. -/
theorem mean_apply (x0 : Vec Ideal S3000x64 .f32) (p : Fin 3000) (q : Fin 64) :
    k3_pay1 (F := Ideal) x0 (ix2 p q) = x0 (ix2 p q) * ((1 / 3 : ℝ) : EReal) := by
  unfold k3_pay1
  rw [shapeCast_self x0 shapeCasts_S3000x64_S3000x64]
  show x0 (ix2 p q) * Named.named (F := Ideal) Cert.KernelIdeal.κ "inv_3" (φ := .f32) 0x3EAAAAAB#32 = _
  rw [third]

end Cert.KernelIdeal.LayerBlock

end
-- ==== Proof.LayerTable.lean ====
/-
  One propagation layer on whole tables.

  The tables have 150000 rows (the users' rows first, then the items') and 64 columns. A layer's new embedding table
  has, at row r and column q, `Perturb.entry` of the propagated table's entry at (r, q), the noise table's entry at
  (r, q) and the sum of the squares of the noise table's row r. Rows do not interact, which is why the table may be cut
  into blocks of whole rows and each block computed by itself. The mean of the three layers is their sum times 1/3.
-/
import proofs.«167419_j51488067944789_1_alg».proof.Proof.PerturbScalar
import Idealize.ShloMosaic.Lib.ValueIdx

noncomputable section

namespace Perturb

open Idealize.ShloMosaic Idealize.ShloMosaic.ValueIdx

/-- The shape of every embedding, noise and running-sum table. -/
abbrev Table : Shape := ⟨2, ![150000, 64]⟩

/-- The row a table index lies in, as a number below 150000. -/
abbrev rowOf (i : Table.Idx) : Fin 150000 := ⟨(i 0).val, (i 0).isLt⟩

/-- A layer's new embedding table from the propagated table and the layer's noise table. -/
def layer (sp nz : Table.Idx → EReal) : Table.Idx → EReal := fun i =>
  entry (sp i) (nz i) (∑ k : Fin 64, nz (ix2 (rowOf i) k) * nz (ix2 (rowOf i) k))

/-- The same, at row r and column q. -/
theorem layer_apply (sp nz : Table.Idx → EReal) (r : Fin 150000) (q : Fin 64) :
    layer sp nz (ix2 r q) = entry (sp (ix2 r q)) (nz (ix2 r q)) (∑ k : Fin 64, nz (ix2 r k) * nz (ix2 r k)) := rfl

/-- A table times the rational 1/3, entry by entry: the mean of three tables from their sum. -/
def third (t : Table.Idx → EReal) : Table.Idx → EReal := fun i => t i * ((1 / 3 : ℝ) : EReal)

theorem third_apply (t : Table.Idx → EReal) (i : Table.Idx) : third t i = t i * ((1 / 3 : ℝ) : EReal) := rfl

end Perturb

end
-- ==== Proof.Layer0.lean ====
/-
  The first layer's kernel, from blocks to tables.

  The kernel runs over 50 grid points; point t handles rows 3000 t … 3000 t + 2999 of every table, all 64 columns: each
  of its five windows has block (t, 0) at point t. So row p of a block at point t is row 3000 t + p of its table, the
  fifty blocks of an output window cover its table, and — because a new embedding entry depends only on its own row of
  the propagated table and of the noise table — what point t writes back is block t of one function of the whole
  tables: the layer for the new embeddings, the running sum plus the layer for the new running sum. This holds
  whatever the tables held when the kernel was entered.
-/
import proofs.«167419_j51488067944789_1_alg».proof.Proof.Patched.KernelIdealFrame
import proofs.«167419_j51488067944789_1_alg».proof.Proof.LayerBlock
import proofs.«167419_j51488067944789_1_alg».proof.Proof.LayerTable
import Idealize.ShloMosaic.Lib.Pipeline.Value
import Idealize.ShloMosaic.Lib.ValueIdx

noncomputable section

namespace Cert.KernelIdeal.Layer0

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Every window's block at point t is block (t, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row p of point t's block is row 3000 t + p of the table. -/
def rowAt (t : Fin cfg0.N) (p : Fin 3000) : Fin 150000 :=
  ⟨3000 * t.val + p.val, by have hN : cfg0.N = 50 := N_0; have := t.isLt; have := p.isLt; omega⟩

/-! ## An input block's entry is the table's entry -/

theorem read0 (c : Dev nD) (t : Fin cfg0.N) (p : Fin 3000) (q : Fin 64) :
    (iblk0 V c 0 t : Vec Ideal S3000x64 .f32) (ix2 p q)
      = (V c main_v14 : S150000x64.Idx → EReal) (ix2 (rowAt t p) q) := by
  obtain ⟨h0, h1, -⟩ := idx_facts t
  unfold iblk0
  rw [View.read_apply]
  show V c main_v14 _ = V c main_v14 _
  refine congrArg (V c main_v14) (funext fun a => Fin.ext ?_)
  match a with
  | ⟨0, _⟩ => show win0_0.index t (0 : Fin 2) * 3000 + 1 * p.val = 3000 * t.val + p.val; rw [h0]; omega
  | ⟨1, _⟩ => show win0_0.index t (1 : Fin 2) * 64 + 1 * q.val = q.val; rw [h1]; omega

theorem read1 (c : Dev nD) (t : Fin cfg0.N) (p : Fin 3000) (q : Fin 64) :
    (iblk0 V c 1 t : Vec Ideal S3000x64 .f32) (ix2 p q)
      = (V c main_v16 : S150000x64.Idx → EReal) (ix2 (rowAt t p) q) := by
  obtain ⟨-, -, h0, h1, -⟩ := idx_facts t
  unfold iblk0
  rw [View.read_apply]
  show V c main_v16 _ = V c main_v16 _
  refine congrArg (V c main_v16) (funext fun a => Fin.ext ?_)
  match a with
  | ⟨0, _⟩ => show win0_1.index t (0 : Fin 2) * 3000 + 1 * p.val = 3000 * t.val + p.val; rw [h0]; omega
  | ⟨1, _⟩ => show win0_1.index t (1 : Fin 2) * 64 + 1 * q.val = q.val; rw [h1]; omega

theorem read2 (c : Dev nD) (t : Fin cfg0.N) (p : Fin 3000) (q : Fin 64) :
    (iblk0 V c 2 t : Vec Ideal S3000x64 .f32) (ix2 p q)
      = (V c main_v1 : S150000x64.Idx → EReal) (ix2 (rowAt t p) q) := by
  obtain ⟨-, -, -, -, h0, h1, -⟩ := idx_facts t
  unfold iblk0
  rw [View.read_apply]
  show V c main_v1 _ = V c main_v1 _
  refine congrArg (V c main_v1) (funext fun a => Fin.ext ?_)
  match a with
  | ⟨0, _⟩ => show win0_2.index t (0 : Fin 2) * 3000 + 1 * p.val = 3000 * t.val + p.val; rw [h0]; omega
  | ⟨1, _⟩ => show win0_2.index t (1 : Fin 2) * 64 + 1 * q.val = q.val; rw [h1]; omega

/-! ## Where an output block's entry sits in its table -/

theorem emb3 (t : Fin cfg0.N) (p : Fin 3000) (q : Fin 64) :
    ((cfg0.win 3).blk t).view.emb (ix2 p q) = (ix2 (rowAt t p) q : S150000x64.Idx) := by
  obtain ⟨-, -, -, -, -, -, h0, h1, -⟩ := idx_facts t
  funext a; apply Fin.ext
  match a with
  | ⟨0, _⟩ => show win0_3.index t (0 : Fin 2) * 3000 + 1 * p.val = 3000 * t.val + p.val; rw [h0]; omega
  | ⟨1, _⟩ => show win0_3.index t (1 : Fin 2) * 64 + 1 * q.val = q.val; rw [h1]; omega

theorem emb4 (t : Fin cfg0.N) (p : Fin 3000) (q : Fin 64) :
    ((cfg0.win 4).blk t).view.emb (ix2 p q) = (ix2 (rowAt t p) q : S150000x64.Idx) := by
  obtain ⟨-, -, -, -, -, -, -, -, h0, h1⟩ := idx_facts t
  funext a; apply Fin.ext
  match a with
  | ⟨0, _⟩ => show win0_4.index t (0 : Fin 2) * 3000 + 1 * p.val = 3000 * t.val + p.val; rw [h0]; omega
  | ⟨1, _⟩ => show win0_4.index t (1 : Fin 2) * 64 + 1 * q.val = q.val; rw [h1]; omega

/-! ## What a point writes back -/

/-- WHAT POINT t WRITES BACK to the new embeddings' table is block t of the layer of the whole tables. -/
theorem flushed3 (c : Dev nD) (t : Fin cfg0.N) :
    (dat0 V c).flushed 3 t
      = ((cfg0.win 3).blk t).view.read (Elt Ideal) (Perturb.layer (V c main_v14) (V c main_v16)) := by
  show (cfg0.win 3).cut (grid0.coords t) ((dat0 V c).after 3 t) = _
  rw [after0_3]
  unfold out0_3
  rw [View.canon_unit_zero hz]
  simp only [View.ld_unit_zero (S := S3000x64) hz]
  funext j
  obtain ⟨p, q, rfl⟩ : ∃ (p : Fin 3000) (q : Fin 64), j = ix2 p q := ⟨j 0, j 1, eq_ix2 j⟩
  rw [View.read_apply, emb3 t p q, Perturb.layer_apply]
  refine (LayerBlock.newEmb_apply (iblk0 V c 0 t) (iblk0 V c 1 t) p q).trans ?_
  rw [read0 V c t p q, read1 V c t p q]
  refine congrArg (Perturb.entry _ _) (Finset.sum_congr rfl fun k _ => ?_)
  rw [read1 V c t p k]

/-- WHAT POINT t WRITES BACK to the running sum's table is block t of the old sum plus the layer. -/
theorem flushed4 (c : Dev nD) (t : Fin cfg0.N) :
    (dat0 V c).flushed 4 t
      = ((cfg0.win 4).blk t).view.read (Elt Ideal)
          (addf (V c main_v1) (Perturb.layer (V c main_v14) (V c main_v16)) : FVec Ideal S150000x64 .f32) := by
  show (cfg0.win 4).cut (grid0.coords t) ((dat0 V c).after 4 t) = _
  rw [after0_4]
  unfold out0_4
  rw [View.canon_unit_zero hz]
  simp only [View.ld_unit_zero (S := S3000x64) hz]
  funext j
  obtain ⟨p, q, rfl⟩ : ∃ (p : Fin 3000) (q : Fin 64), j = ix2 p q := ⟨j 0, j 1, eq_ix2 j⟩
  have hadd : ∀ (a b : FVec Ideal S150000x64 .f32) (i : S150000x64.Idx), addf a b i = a i + b i := fun _ _ _ => rfl
  rw [View.read_apply, emb4 t p q, hadd, Perturb.layer_apply]
  refine (LayerBlock.newSum_apply (iblk0 V c 0 t) (iblk0 V c 1 t) (iblk0 V c 2 t) p q).trans ?_
  rw [read0 V c t p q, read1 V c t p q, read2 V c t p q]
  refine congrArg (_ + Perturb.entry _ _ ·) (Finset.sum_congr rfl fun k _ => ?_)
  rw [read1 V c t p k]

/-! ## The blocks cover the tables -/

/-- A table index is in point t's block iff its row is one of the block's 3000 and its column one of the 64. -/
theorem mem_blk3 (t : Fin cfg0.N) (i : S150000x64.Idx) :
    i ∈ ((cfg0.win 3).blk t).view.set ↔ ∀ a : Fin 2, win0_3.index t a * S3000x64.size a ≤ (i a).val ∧ (i a).val < win0_3.index t a * S3000x64.size a + S3000x64.size a := by
  show i ∈ ((View.whole main_v17_0).slice (win0_3.rect t)).set ↔ _
  rw [View.set_slice_whole, Rect.mem_set_unit]
  exact Iff.rfl

theorem mem_blk4 (t : Fin cfg0.N) (i : S150000x64.Idx) :
    i ∈ ((cfg0.win 4).blk t).view.set ↔ ∀ a : Fin 2, win0_4.index t a * S3000x64.size a ≤ (i a).val ∧ (i a).val < win0_4.index t a * S3000x64.size a + S3000x64.size a := by
  show i ∈ ((View.whole main_v17_1).slice (win0_4.rect t)).set ↔ _
  rw [View.set_slice_whole, Rect.mem_set_unit]
  exact Iff.rfl

/-- Row r lies in the block of point r / 3000. -/
theorem cover3 (i : S150000x64.Idx) :
    ∃ t : Fin cfg0.N, (cfg0.win 3).flush t = true ∧ i ∈ ((cfg0.win 3).blk t).view.set := by
  have hN : cfg0.N = 50 := N_0
  have hi0 : (i 0).val < 150000 := (i 0).isLt
  have hi1 : (i 1).val < 64 := (i 1).isLt
  obtain ⟨t, ht⟩ : ∃ t : Fin cfg0.N, t.val = (i 0).val / 3000 := ⟨⟨(i 0).val / 3000, by omega⟩, rfl⟩
  obtain ⟨-, -, -, -, -, -, h0, h1, -⟩ := idx_facts t
  refine ⟨t, flush0_3 t, ?_⟩
  rw [mem_blk3]
  intro a
  match a with
  | ⟨0, _⟩ => show win0_3.index t (0 : Fin 2) * 3000 ≤ (i 0).val ∧ (i 0).val < win0_3.index t (0 : Fin 2) * 3000 + 3000; rw [h0, ht]; omega
  | ⟨1, _⟩ => show win0_3.index t (1 : Fin 2) * 64 ≤ (i 1).val ∧ (i 1).val < win0_3.index t (1 : Fin 2) * 64 + 64; rw [h1]; omega

theorem cover4 (i : S150000x64.Idx) :
    ∃ t : Fin cfg0.N, (cfg0.win 4).flush t = true ∧ i ∈ ((cfg0.win 4).blk t).view.set := by
  have hN : cfg0.N = 50 := N_0
  have hi0 : (i 0).val < 150000 := (i 0).isLt
  have hi1 : (i 1).val < 64 := (i 1).isLt
  obtain ⟨t, ht⟩ : ∃ t : Fin cfg0.N, t.val = (i 0).val / 3000 := ⟨⟨(i 0).val / 3000, by omega⟩, rfl⟩
  obtain ⟨-, -, -, -, -, -, -, -, h0, h1⟩ := idx_facts t
  refine ⟨t, flush0_4 t, ?_⟩
  rw [mem_blk4]
  intro a
  match a with
  | ⟨0, _⟩ => show win0_4.index t (0 : Fin 2) * 3000 ≤ (i 0).val ∧ (i 0).val < win0_4.index t (0 : Fin 2) * 3000 + 3000; rw [h0, ht]; omega
  | ⟨1, _⟩ => show win0_4.index t (1 : Fin 2) * 64 ≤ (i 1).val ∧ (i 1).val < win0_4.index t (1 : Fin 2) * 64 + 64; rw [h1]; omega

/-! ## The tables after the kernel -/

/-- THE NEW EMBEDDINGS' TABLE after the kernel: the layer of the propagated table and the noise table it was entered with. -/
theorem newEmb (c : Dev nD) :
    (dat0 V c).arrAt 3 cfg0.N = Perturb.layer (V c main_v14) (V c main_v16) :=
  (dat0 V c).arrAt_eq_of_cover 3 _ (fun t _ => flushed3 V c t) cover3

/-- THE RUNNING SUM'S TABLE after the kernel: the sum it was entered with plus the layer. -/
theorem newSum (c : Dev nD) :
    (dat0 V c).arrAt 4 cfg0.N
      = (addf (V c main_v1) (Perturb.layer (V c main_v14) (V c main_v16)) : FVec Ideal S150000x64 .f32) :=
  (dat0 V c).arrAt_eq_of_cover 4 _ (fun t _ => flushed4 V c t) cover4

end Cert.KernelIdeal.Layer0

end
-- ==== Proof.Layer1.lean ====
/-
  The second layer's kernel, from blocks to tables.

  The kernel runs over 50 grid points; point t handles rows 3000 t … 3000 t + 2999 of every table, all 64 columns: each
  of its five windows has block (t, 0) at point t. So row p of a block at point t is row 3000 t + p of its table, the
  fifty blocks of an output window cover its table, and — because a new embedding entry depends only on its own row of
  the propagated table and of the noise table — what point t writes back is block t of one function of the whole
  tables: the layer for the new embeddings, the running sum plus the layer for the new running sum. This holds
  whatever the tables held when the kernel was entered.
-/
import proofs.«167419_j51488067944789_1_alg».proof.Proof.Patched.KernelIdealFrame
import proofs.«167419_j51488067944789_1_alg».proof.Proof.LayerBlock
import proofs.«167419_j51488067944789_1_alg».proof.Proof.LayerTable
import Idealize.ShloMosaic.Lib.Pipeline.Value
import Idealize.ShloMosaic.Lib.ValueIdx

noncomputable section

namespace Cert.KernelIdeal.Layer1

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Every window's block at point t is block (t, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- Row p of point t's block is row 3000 t + p of the table. -/
def rowAt (t : Fin cfg1.N) (p : Fin 3000) : Fin 150000 :=
  ⟨3000 * t.val + p.val, by have hN : cfg1.N = 50 := N_1; have := t.isLt; have := p.isLt; omega⟩

/-! ## An input block's entry is the table's entry -/

theorem read0 (c : Dev nD) (t : Fin cfg1.N) (p : Fin 3000) (q : Fin 64) :
    (iblk1 V c 0 t : Vec Ideal S3000x64 .f32) (ix2 p q)
      = (V c main_v30 : S150000x64.Idx → EReal) (ix2 (rowAt t p) q) := by
  obtain ⟨h0, h1, -⟩ := idx_facts t
  unfold iblk1
  rw [View.read_apply]
  show V c main_v30 _ = V c main_v30 _
  refine congrArg (V c main_v30) (funext fun a => Fin.ext ?_)
  match a with
  | ⟨0, _⟩ => show win1_0.index t (0 : Fin 2) * 3000 + 1 * p.val = 3000 * t.val + p.val; rw [h0]; omega
  | ⟨1, _⟩ => show win1_0.index t (1 : Fin 2) * 64 + 1 * q.val = q.val; rw [h1]; omega

theorem read1 (c : Dev nD) (t : Fin cfg1.N) (p : Fin 3000) (q : Fin 64) :
    (iblk1 V c 1 t : Vec Ideal S3000x64 .f32) (ix2 p q)
      = (V c main_v32 : S150000x64.Idx → EReal) (ix2 (rowAt t p) q) := by
  obtain ⟨-, -, h0, h1, -⟩ := idx_facts t
  unfold iblk1
  rw [View.read_apply]
  show V c main_v32 _ = V c main_v32 _
  refine congrArg (V c main_v32) (funext fun a => Fin.ext ?_)
  match a with
  | ⟨0, _⟩ => show win1_1.index t (0 : Fin 2) * 3000 + 1 * p.val = 3000 * t.val + p.val; rw [h0]; omega
  | ⟨1, _⟩ => show win1_1.index t (1 : Fin 2) * 64 + 1 * q.val = q.val; rw [h1]; omega

theorem read2 (c : Dev nD) (t : Fin cfg1.N) (p : Fin 3000) (q : Fin 64) :
    (iblk1 V c 2 t : Vec Ideal S3000x64 .f32) (ix2 p q)
      = (V c main_v17_1 : S150000x64.Idx → EReal) (ix2 (rowAt t p) q) := by
  obtain ⟨-, -, -, -, h0, h1, -⟩ := idx_facts t
  unfold iblk1
  rw [View.read_apply]
  show V c main_v17_1 _ = V c main_v17_1 _
  refine congrArg (V c main_v17_1) (funext fun a => Fin.ext ?_)
  match a with
  | ⟨0, _⟩ => show win1_2.index t (0 : Fin 2) * 3000 + 1 * p.val = 3000 * t.val + p.val; rw [h0]; omega
  | ⟨1, _⟩ => show win1_2.index t (1 : Fin 2) * 64 + 1 * q.val = q.val; rw [h1]; omega

/-! ## Where an output block's entry sits in its table -/

theorem emb3 (t : Fin cfg1.N) (p : Fin 3000) (q : Fin 64) :
    ((cfg1.win 3).blk t).view.emb (ix2 p q) = (ix2 (rowAt t p) q : S150000x64.Idx) := by
  obtain ⟨-, -, -, -, -, -, h0, h1, -⟩ := idx_facts t
  funext a; apply Fin.ext
  match a with
  | ⟨0, _⟩ => show win1_3.index t (0 : Fin 2) * 3000 + 1 * p.val = 3000 * t.val + p.val; rw [h0]; omega
  | ⟨1, _⟩ => show win1_3.index t (1 : Fin 2) * 64 + 1 * q.val = q.val; rw [h1]; omega

theorem emb4 (t : Fin cfg1.N) (p : Fin 3000) (q : Fin 64) :
    ((cfg1.win 4).blk t).view.emb (ix2 p q) = (ix2 (rowAt t p) q : S150000x64.Idx) := by
  obtain ⟨-, -, -, -, -, -, -, -, h0, h1⟩ := idx_facts t
  funext a; apply Fin.ext
  match a with
  | ⟨0, _⟩ => show win1_4.index t (0 : Fin 2) * 3000 + 1 * p.val = 3000 * t.val + p.val; rw [h0]; omega
  | ⟨1, _⟩ => show win1_4.index t (1 : Fin 2) * 64 + 1 * q.val = q.val; rw [h1]; omega

/-! ## What a point writes back -/

/-- WHAT POINT t WRITES BACK to the new embeddings' table is block t of the layer of the whole tables. -/
theorem flushed3 (c : Dev nD) (t : Fin cfg1.N) :
    (dat1 V c).flushed 3 t
      = ((cfg1.win 3).blk t).view.read (Elt Ideal) (Perturb.layer (V c main_v30) (V c main_v32)) := by
  show (cfg1.win 3).cut (grid1.coords t) ((dat1 V c).after 3 t) = _
  rw [after1_3]
  unfold out1_3
  rw [View.canon_unit_zero hz]
  simp only [View.ld_unit_zero (S := S3000x64) hz]
  funext j
  obtain ⟨p, q, rfl⟩ : ∃ (p : Fin 3000) (q : Fin 64), j = ix2 p q := ⟨j 0, j 1, eq_ix2 j⟩
  rw [View.read_apply, emb3 t p q, Perturb.layer_apply]
  refine ((congrFun (LayerBlock.newEmb1_eq (iblk1 V c 0 t) (iblk1 V c 1 t)) (ix2 p q)).trans
    (LayerBlock.newEmb_apply (iblk1 V c 0 t) (iblk1 V c 1 t) p q)).trans ?_
  rw [read0 V c t p q, read1 V c t p q]
  refine congrArg (Perturb.entry _ _) (Finset.sum_congr rfl fun k _ => ?_)
  rw [read1 V c t p k]

/-- WHAT POINT t WRITES BACK to the running sum's table is block t of the old sum plus the layer. -/
theorem flushed4 (c : Dev nD) (t : Fin cfg1.N) :
    (dat1 V c).flushed 4 t
      = ((cfg1.win 4).blk t).view.read (Elt Ideal)
          (addf (V c main_v17_1) (Perturb.layer (V c main_v30) (V c main_v32)) : FVec Ideal S150000x64 .f32) := by
  show (cfg1.win 4).cut (grid1.coords t) ((dat1 V c).after 4 t) = _
  rw [after1_4]
  unfold out1_4
  rw [View.canon_unit_zero hz]
  simp only [View.ld_unit_zero (S := S3000x64) hz]
  funext j
  obtain ⟨p, q, rfl⟩ : ∃ (p : Fin 3000) (q : Fin 64), j = ix2 p q := ⟨j 0, j 1, eq_ix2 j⟩
  have hadd : ∀ (a b : FVec Ideal S150000x64 .f32) (i : S150000x64.Idx), addf a b i = a i + b i := fun _ _ _ => rfl
  rw [View.read_apply, emb4 t p q, hadd, Perturb.layer_apply]
  refine ((congrFun (LayerBlock.newSum1_eq (iblk1 V c 0 t) (iblk1 V c 1 t) (iblk1 V c 2 t)) (ix2 p q)).trans
    (LayerBlock.newSum_apply (iblk1 V c 0 t) (iblk1 V c 1 t) (iblk1 V c 2 t) p q)).trans ?_
  rw [read0 V c t p q, read1 V c t p q, read2 V c t p q]
  refine congrArg (_ + Perturb.entry _ _ ·) (Finset.sum_congr rfl fun k _ => ?_)
  rw [read1 V c t p k]

/-! ## The blocks cover the tables -/

/-- A table index is in point t's block iff its row is one of the block's 3000 and its column one of the 64. -/
theorem mem_blk3 (t : Fin cfg1.N) (i : S150000x64.Idx) :
    i ∈ ((cfg1.win 3).blk t).view.set ↔ ∀ a : Fin 2, win1_3.index t a * S3000x64.size a ≤ (i a).val ∧ (i a).val < win1_3.index t a * S3000x64.size a + S3000x64.size a := by
  show i ∈ ((View.whole main_v33_0).slice (win1_3.rect t)).set ↔ _
  rw [View.set_slice_whole, Rect.mem_set_unit]
  exact Iff.rfl

theorem mem_blk4 (t : Fin cfg1.N) (i : S150000x64.Idx) :
    i ∈ ((cfg1.win 4).blk t).view.set ↔ ∀ a : Fin 2, win1_4.index t a * S3000x64.size a ≤ (i a).val ∧ (i a).val < win1_4.index t a * S3000x64.size a + S3000x64.size a := by
  show i ∈ ((View.whole main_v33_1).slice (win1_4.rect t)).set ↔ _
  rw [View.set_slice_whole, Rect.mem_set_unit]
  exact Iff.rfl

/-- Row r lies in the block of point r / 3000. -/
theorem cover3 (i : S150000x64.Idx) :
    ∃ t : Fin cfg1.N, (cfg1.win 3).flush t = true ∧ i ∈ ((cfg1.win 3).blk t).view.set := by
  have hN : cfg1.N = 50 := N_1
  have hi0 : (i 0).val < 150000 := (i 0).isLt
  have hi1 : (i 1).val < 64 := (i 1).isLt
  obtain ⟨t, ht⟩ : ∃ t : Fin cfg1.N, t.val = (i 0).val / 3000 := ⟨⟨(i 0).val / 3000, by omega⟩, rfl⟩
  obtain ⟨-, -, -, -, -, -, h0, h1, -⟩ := idx_facts t
  refine ⟨t, flush1_3 t, ?_⟩
  rw [mem_blk3]
  intro a
  match a with
  | ⟨0, _⟩ => show win1_3.index t (0 : Fin 2) * 3000 ≤ (i 0).val ∧ (i 0).val < win1_3.index t (0 : Fin 2) * 3000 + 3000; rw [h0, ht]; omega
  | ⟨1, _⟩ => show win1_3.index t (1 : Fin 2) * 64 ≤ (i 1).val ∧ (i 1).val < win1_3.index t (1 : Fin 2) * 64 + 64; rw [h1]; omega

theorem cover4 (i : S150000x64.Idx) :
    ∃ t : Fin cfg1.N, (cfg1.win 4).flush t = true ∧ i ∈ ((cfg1.win 4).blk t).view.set := by
  have hN : cfg1.N = 50 := N_1
  have hi0 : (i 0).val < 150000 := (i 0).isLt
  have hi1 : (i 1).val < 64 := (i 1).isLt
  obtain ⟨t, ht⟩ : ∃ t : Fin cfg1.N, t.val = (i 0).val / 3000 := ⟨⟨(i 0).val / 3000, by omega⟩, rfl⟩
  obtain ⟨-, -, -, -, -, -, -, -, h0, h1⟩ := idx_facts t
  refine ⟨t, flush1_4 t, ?_⟩
  rw [mem_blk4]
  intro a
  match a with
  | ⟨0, _⟩ => show win1_4.index t (0 : Fin 2) * 3000 ≤ (i 0).val ∧ (i 0).val < win1_4.index t (0 : Fin 2) * 3000 + 3000; rw [h0, ht]; omega
  | ⟨1, _⟩ => show win1_4.index t (1 : Fin 2) * 64 ≤ (i 1).val ∧ (i 1).val < win1_4.index t (1 : Fin 2) * 64 + 64; rw [h1]; omega

/-! ## The tables after the kernel -/

/-- THE NEW EMBEDDINGS' TABLE after the kernel: the layer of the propagated table and the noise table it was entered with. -/
theorem newEmb (c : Dev nD) :
    (dat1 V c).arrAt 3 cfg1.N = Perturb.layer (V c main_v30) (V c main_v32) :=
  (dat1 V c).arrAt_eq_of_cover 3 _ (fun t _ => flushed3 V c t) cover3

/-- THE RUNNING SUM'S TABLE after the kernel: the sum it was entered with plus the layer. -/
theorem newSum (c : Dev nD) :
    (dat1 V c).arrAt 4 cfg1.N
      = (addf (V c main_v17_1) (Perturb.layer (V c main_v30) (V c main_v32)) : FVec Ideal S150000x64 .f32) :=
  (dat1 V c).arrAt_eq_of_cover 4 _ (fun t _ => flushed4 V c t) cover4

end Cert.KernelIdeal.Layer1

end
-- ==== Proof.Layer2.lean ====
/-
  The third layer's kernel, from blocks to tables.

  The kernel runs over 50 grid points; point t handles rows 3000 t … 3000 t + 2999 of every table, all 64 columns: each
  of its five windows has block (t, 0) at point t. So row p of a block at point t is row 3000 t + p of its table, the
  fifty blocks of an output window cover its table, and — because a new embedding entry depends only on its own row of
  the propagated table and of the noise table — what point t writes back is block t of one function of the whole
  tables: the layer for the new embeddings, the running sum plus the layer for the new running sum. This holds
  whatever the tables held when the kernel was entered.
-/
import proofs.«167419_j51488067944789_1_alg».proof.Proof.Patched.KernelIdealFrame
import proofs.«167419_j51488067944789_1_alg».proof.Proof.LayerBlock
import proofs.«167419_j51488067944789_1_alg».proof.Proof.LayerTable
import Idealize.ShloMosaic.Lib.Pipeline.Value
import Idealize.ShloMosaic.Lib.ValueIdx

noncomputable section

namespace Cert.KernelIdeal.Layer2

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Every window's block at point t is block (t, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- Row p of point t's block is row 3000 t + p of the table. -/
def rowAt (t : Fin cfg2.N) (p : Fin 3000) : Fin 150000 :=
  ⟨3000 * t.val + p.val, by have hN : cfg2.N = 50 := N_2; have := t.isLt; have := p.isLt; omega⟩

/-! ## An input block's entry is the table's entry -/

theorem read0 (c : Dev nD) (t : Fin cfg2.N) (p : Fin 3000) (q : Fin 64) :
    (iblk2 V c 0 t : Vec Ideal S3000x64 .f32) (ix2 p q)
      = (V c main_v46 : S150000x64.Idx → EReal) (ix2 (rowAt t p) q) := by
  obtain ⟨h0, h1, -⟩ := idx_facts t
  unfold iblk2
  rw [View.read_apply]
  show V c main_v46 _ = V c main_v46 _
  refine congrArg (V c main_v46) (funext fun a => Fin.ext ?_)
  match a with
  | ⟨0, _⟩ => show win2_0.index t (0 : Fin 2) * 3000 + 1 * p.val = 3000 * t.val + p.val; rw [h0]; omega
  | ⟨1, _⟩ => show win2_0.index t (1 : Fin 2) * 64 + 1 * q.val = q.val; rw [h1]; omega

theorem read1 (c : Dev nD) (t : Fin cfg2.N) (p : Fin 3000) (q : Fin 64) :
    (iblk2 V c 1 t : Vec Ideal S3000x64 .f32) (ix2 p q)
      = (V c main_v48 : S150000x64.Idx → EReal) (ix2 (rowAt t p) q) := by
  obtain ⟨-, -, h0, h1, -⟩ := idx_facts t
  unfold iblk2
  rw [View.read_apply]
  show V c main_v48 _ = V c main_v48 _
  refine congrArg (V c main_v48) (funext fun a => Fin.ext ?_)
  match a with
  | ⟨0, _⟩ => show win2_1.index t (0 : Fin 2) * 3000 + 1 * p.val = 3000 * t.val + p.val; rw [h0]; omega
  | ⟨1, _⟩ => show win2_1.index t (1 : Fin 2) * 64 + 1 * q.val = q.val; rw [h1]; omega

theorem read2 (c : Dev nD) (t : Fin cfg2.N) (p : Fin 3000) (q : Fin 64) :
    (iblk2 V c 2 t : Vec Ideal S3000x64 .f32) (ix2 p q)
      = (V c main_v33_1 : S150000x64.Idx → EReal) (ix2 (rowAt t p) q) := by
  obtain ⟨-, -, -, -, h0, h1, -⟩ := idx_facts t
  unfold iblk2
  rw [View.read_apply]
  show V c main_v33_1 _ = V c main_v33_1 _
  refine congrArg (V c main_v33_1) (funext fun a => Fin.ext ?_)
  match a with
  | ⟨0, _⟩ => show win2_2.index t (0 : Fin 2) * 3000 + 1 * p.val = 3000 * t.val + p.val; rw [h0]; omega
  | ⟨1, _⟩ => show win2_2.index t (1 : Fin 2) * 64 + 1 * q.val = q.val; rw [h1]; omega

/-! ## Where an output block's entry sits in its table -/

theorem emb3 (t : Fin cfg2.N) (p : Fin 3000) (q : Fin 64) :
    ((cfg2.win 3).blk t).view.emb (ix2 p q) = (ix2 (rowAt t p) q : S150000x64.Idx) := by
  obtain ⟨-, -, -, -, -, -, h0, h1, -⟩ := idx_facts t
  funext a; apply Fin.ext
  match a with
  | ⟨0, _⟩ => show win2_3.index t (0 : Fin 2) * 3000 + 1 * p.val = 3000 * t.val + p.val; rw [h0]; omega
  | ⟨1, _⟩ => show win2_3.index t (1 : Fin 2) * 64 + 1 * q.val = q.val; rw [h1]; omega

theorem emb4 (t : Fin cfg2.N) (p : Fin 3000) (q : Fin 64) :
    ((cfg2.win 4).blk t).view.emb (ix2 p q) = (ix2 (rowAt t p) q : S150000x64.Idx) := by
  obtain ⟨-, -, -, -, -, -, -, -, h0, h1⟩ := idx_facts t
  funext a; apply Fin.ext
  match a with
  | ⟨0, _⟩ => show win2_4.index t (0 : Fin 2) * 3000 + 1 * p.val = 3000 * t.val + p.val; rw [h0]; omega
  | ⟨1, _⟩ => show win2_4.index t (1 : Fin 2) * 64 + 1 * q.val = q.val; rw [h1]; omega

/-! ## What a point writes back -/

/-- WHAT POINT t WRITES BACK to the new embeddings' table is block t of the layer of the whole tables. -/
theorem flushed3 (c : Dev nD) (t : Fin cfg2.N) :
    (dat2 V c).flushed 3 t
      = ((cfg2.win 3).blk t).view.read (Elt Ideal) (Perturb.layer (V c main_v46) (V c main_v48)) := by
  show (cfg2.win 3).cut (grid2.coords t) ((dat2 V c).after 3 t) = _
  rw [after2_3]
  unfold out2_3
  rw [View.canon_unit_zero hz]
  simp only [View.ld_unit_zero (S := S3000x64) hz]
  funext j
  obtain ⟨p, q, rfl⟩ : ∃ (p : Fin 3000) (q : Fin 64), j = ix2 p q := ⟨j 0, j 1, eq_ix2 j⟩
  rw [View.read_apply, emb3 t p q, Perturb.layer_apply]
  refine ((congrFun (LayerBlock.newEmb2_eq (iblk2 V c 0 t) (iblk2 V c 1 t)) (ix2 p q)).trans
    (LayerBlock.newEmb_apply (iblk2 V c 0 t) (iblk2 V c 1 t) p q)).trans ?_
  rw [read0 V c t p q, read1 V c t p q]
  refine congrArg (Perturb.entry _ _) (Finset.sum_congr rfl fun k _ => ?_)
  rw [read1 V c t p k]

/-- WHAT POINT t WRITES BACK to the running sum's table is block t of the old sum plus the layer. -/
theorem flushed4 (c : Dev nD) (t : Fin cfg2.N) :
    (dat2 V c).flushed 4 t
      = ((cfg2.win 4).blk t).view.read (Elt Ideal)
          (addf (V c main_v33_1) (Perturb.layer (V c main_v46) (V c main_v48)) : FVec Ideal S150000x64 .f32) := by
  show (cfg2.win 4).cut (grid2.coords t) ((dat2 V c).after 4 t) = _
  rw [after2_4]
  unfold out2_4
  rw [View.canon_unit_zero hz]
  simp only [View.ld_unit_zero (S := S3000x64) hz]
  funext j
  obtain ⟨p, q, rfl⟩ : ∃ (p : Fin 3000) (q : Fin 64), j = ix2 p q := ⟨j 0, j 1, eq_ix2 j⟩
  have hadd : ∀ (a b : FVec Ideal S150000x64 .f32) (i : S150000x64.Idx), addf a b i = a i + b i := fun _ _ _ => rfl
  rw [View.read_apply, emb4 t p q, hadd, Perturb.layer_apply]
  refine ((congrFun (LayerBlock.newSum2_eq (iblk2 V c 0 t) (iblk2 V c 1 t) (iblk2 V c 2 t)) (ix2 p q)).trans
    (LayerBlock.newSum_apply (iblk2 V c 0 t) (iblk2 V c 1 t) (iblk2 V c 2 t) p q)).trans ?_
  rw [read0 V c t p q, read1 V c t p q, read2 V c t p q]
  refine congrArg (_ + Perturb.entry _ _ ·) (Finset.sum_congr rfl fun k _ => ?_)
  rw [read1 V c t p k]

/-! ## The blocks cover the tables -/

/-- A table index is in point t's block iff its row is one of the block's 3000 and its column one of the 64. -/
theorem mem_blk3 (t : Fin cfg2.N) (i : S150000x64.Idx) :
    i ∈ ((cfg2.win 3).blk t).view.set ↔ ∀ a : Fin 2, win2_3.index t a * S3000x64.size a ≤ (i a).val ∧ (i a).val < win2_3.index t a * S3000x64.size a + S3000x64.size a := by
  show i ∈ ((View.whole main_v49_0).slice (win2_3.rect t)).set ↔ _
  rw [View.set_slice_whole, Rect.mem_set_unit]
  exact Iff.rfl

theorem mem_blk4 (t : Fin cfg2.N) (i : S150000x64.Idx) :
    i ∈ ((cfg2.win 4).blk t).view.set ↔ ∀ a : Fin 2, win2_4.index t a * S3000x64.size a ≤ (i a).val ∧ (i a).val < win2_4.index t a * S3000x64.size a + S3000x64.size a := by
  show i ∈ ((View.whole main_v49_1).slice (win2_4.rect t)).set ↔ _
  rw [View.set_slice_whole, Rect.mem_set_unit]
  exact Iff.rfl

/-- Row r lies in the block of point r / 3000. -/
theorem cover3 (i : S150000x64.Idx) :
    ∃ t : Fin cfg2.N, (cfg2.win 3).flush t = true ∧ i ∈ ((cfg2.win 3).blk t).view.set := by
  have hN : cfg2.N = 50 := N_2
  have hi0 : (i 0).val < 150000 := (i 0).isLt
  have hi1 : (i 1).val < 64 := (i 1).isLt
  obtain ⟨t, ht⟩ : ∃ t : Fin cfg2.N, t.val = (i 0).val / 3000 := ⟨⟨(i 0).val / 3000, by omega⟩, rfl⟩
  obtain ⟨-, -, -, -, -, -, h0, h1, -⟩ := idx_facts t
  refine ⟨t, flush2_3 t, ?_⟩
  rw [mem_blk3]
  intro a
  match a with
  | ⟨0, _⟩ => show win2_3.index t (0 : Fin 2) * 3000 ≤ (i 0).val ∧ (i 0).val < win2_3.index t (0 : Fin 2) * 3000 + 3000; rw [h0, ht]; omega
  | ⟨1, _⟩ => show win2_3.index t (1 : Fin 2) * 64 ≤ (i 1).val ∧ (i 1).val < win2_3.index t (1 : Fin 2) * 64 + 64; rw [h1]; omega

theorem cover4 (i : S150000x64.Idx) :
    ∃ t : Fin cfg2.N, (cfg2.win 4).flush t = true ∧ i ∈ ((cfg2.win 4).blk t).view.set := by
  have hN : cfg2.N = 50 := N_2
  have hi0 : (i 0).val < 150000 := (i 0).isLt
  have hi1 : (i 1).val < 64 := (i 1).isLt
  obtain ⟨t, ht⟩ : ∃ t : Fin cfg2.N, t.val = (i 0).val / 3000 := ⟨⟨(i 0).val / 3000, by omega⟩, rfl⟩
  obtain ⟨-, -, -, -, -, -, -, -, h0, h1⟩ := idx_facts t
  refine ⟨t, flush2_4 t, ?_⟩
  rw [mem_blk4]
  intro a
  match a with
  | ⟨0, _⟩ => show win2_4.index t (0 : Fin 2) * 3000 ≤ (i 0).val ∧ (i 0).val < win2_4.index t (0 : Fin 2) * 3000 + 3000; rw [h0, ht]; omega
  | ⟨1, _⟩ => show win2_4.index t (1 : Fin 2) * 64 ≤ (i 1).val ∧ (i 1).val < win2_4.index t (1 : Fin 2) * 64 + 64; rw [h1]; omega

/-! ## The tables after the kernel -/

/-- THE NEW EMBEDDINGS' TABLE after the kernel: the layer of the propagated table and the noise table it was entered with. -/
theorem newEmb (c : Dev nD) :
    (dat2 V c).arrAt 3 cfg2.N = Perturb.layer (V c main_v46) (V c main_v48) :=
  (dat2 V c).arrAt_eq_of_cover 3 _ (fun t _ => flushed3 V c t) cover3

/-- THE RUNNING SUM'S TABLE after the kernel: the sum it was entered with plus the layer. -/
theorem newSum (c : Dev nD) :
    (dat2 V c).arrAt 4 cfg2.N
      = (addf (V c main_v33_1) (Perturb.layer (V c main_v46) (V c main_v48)) : FVec Ideal S150000x64 .f32) :=
  (dat2 V c).arrAt_eq_of_cover 4 _ (fun t _ => flushed4 V c t) cover4

end Cert.KernelIdeal.Layer2

end
-- ==== Proof.MeanKernel.lean ====
/-
  The last kernel, from blocks to the table: the mean.

  The kernel runs over the same 50 grid points with the same blocks of 3000 whole rows. Its body stores its input block
  times the constant named 1/3, entry by entry, so what point t writes back is block t of the running sum's table times
  1/3, and the fifty blocks cover the table — whatever the running sum's table held when the kernel was entered.
-/
import proofs.«167419_j51488067944789_1_alg».proof.Proof.Patched.KernelIdealFrame
import proofs.«167419_j51488067944789_1_alg».proof.Proof.LayerBlock
import proofs.«167419_j51488067944789_1_alg».proof.Proof.LayerTable
import Idealize.ShloMosaic.Lib.Pipeline.Value
import Idealize.ShloMosaic.Lib.ValueIdx

noncomputable section

namespace Cert.KernelIdeal.MeanKernel

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Both windows' block at point t is block (t, 0). -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0 :=
  (by decide +kernel : ∀ t : Fin grid3.N, _)

/-- Row p of point t's block is row 3000 t + p of the table. -/
def rowAt (t : Fin cfg3.N) (p : Fin 3000) : Fin 150000 :=
  ⟨3000 * t.val + p.val, by have hN : cfg3.N = 50 := N_3; have := t.isLt; have := p.isLt; omega⟩

/-- The input block's entry is the running sum's entry. -/
theorem read0 (c : Dev nD) (t : Fin cfg3.N) (p : Fin 3000) (q : Fin 64) :
    (iblk3 V c 0 t : Vec Ideal S3000x64 .f32) (ix2 p q)
      = (V c main_v49_1 : S150000x64.Idx → EReal) (ix2 (rowAt t p) q) := by
  obtain ⟨h0, h1, -⟩ := idx_facts t
  unfold iblk3
  rw [View.read_apply]
  show V c main_v49_1 _ = V c main_v49_1 _
  refine congrArg (V c main_v49_1) (funext fun a => Fin.ext ?_)
  match a with
  | ⟨0, _⟩ => show win3_0.index t (0 : Fin 2) * 3000 + 1 * p.val = 3000 * t.val + p.val; rw [h0]; omega
  | ⟨1, _⟩ => show win3_0.index t (1 : Fin 2) * 64 + 1 * q.val = q.val; rw [h1]; omega

/-- Where the output block's entry sits in the table. -/
theorem emb1 (t : Fin cfg3.N) (p : Fin 3000) (q : Fin 64) :
    ((cfg3.win 1).blk t).view.emb (ix2 p q) = (ix2 (rowAt t p) q : S150000x64.Idx) := by
  obtain ⟨-, -, h0, h1⟩ := idx_facts t
  funext a; apply Fin.ext
  match a with
  | ⟨0, _⟩ => show win3_1.index t (0 : Fin 2) * 3000 + 1 * p.val = 3000 * t.val + p.val; rw [h0]; omega
  | ⟨1, _⟩ => show win3_1.index t (1 : Fin 2) * 64 + 1 * q.val = q.val; rw [h1]; omega

/-- WHAT POINT t WRITES BACK is block t of the running sum's table times 1/3. -/
theorem flushed1 (c : Dev nD) (t : Fin cfg3.N) :
    (dat3 V c).flushed 1 t
      = ((cfg3.win 1).blk t).view.read (Elt Ideal)
          (Perturb.third (V c main_v49_1)) := by
  show (cfg3.win 1).cut (grid3.coords t) ((dat3 V c).after 1 t) = _
  rw [after3_1]
  unfold out3_1
  rw [View.canon_unit_zero hz]
  simp only [View.ld_unit_zero (S := S3000x64) hz]
  funext j
  obtain ⟨p, q, rfl⟩ : ∃ (p : Fin 3000) (q : Fin 64), j = ix2 p q := ⟨j 0, j 1, eq_ix2 j⟩
  rw [View.read_apply, emb1 t p q]
  refine (LayerBlock.mean_apply (iblk3 V c 0 t) p q).trans ?_
  exact congrArg (fun x : EReal => x * ((1 / 3 : ℝ) : EReal)) (read0 V c t p q)

/-- A table index is in point t's block iff its row is one of the block's 3000 and its column one of the 64. -/
theorem mem_blk1 (t : Fin cfg3.N) (i : S150000x64.Idx) :
    i ∈ ((cfg3.win 1).blk t).view.set ↔ ∀ a : Fin 2, win3_1.index t a * S3000x64.size a ≤ (i a).val ∧ (i a).val < win3_1.index t a * S3000x64.size a + S3000x64.size a := by
  show i ∈ ((View.whole main_v50).slice (win3_1.rect t)).set ↔ _
  rw [View.set_slice_whole, Rect.mem_set_unit]
  exact Iff.rfl

/-- Row r lies in the block of point r / 3000. -/
theorem cover1 (i : S150000x64.Idx) :
    ∃ t : Fin cfg3.N, (cfg3.win 1).flush t = true ∧ i ∈ ((cfg3.win 1).blk t).view.set := by
  have hN : cfg3.N = 50 := N_3
  have hi0 : (i 0).val < 150000 := (i 0).isLt
  have hi1 : (i 1).val < 64 := (i 1).isLt
  obtain ⟨t, ht⟩ : ∃ t : Fin cfg3.N, t.val = (i 0).val / 3000 := ⟨⟨(i 0).val / 3000, by omega⟩, rfl⟩
  obtain ⟨-, -, h0, h1⟩ := idx_facts t
  refine ⟨t, flush3_1 t, ?_⟩
  rw [mem_blk1]
  intro a
  match a with
  | ⟨0, _⟩ => show win3_1.index t (0 : Fin 2) * 3000 ≤ (i 0).val ∧ (i 0).val < win3_1.index t (0 : Fin 2) * 3000 + 3000; rw [h0, ht]; omega
  | ⟨1, _⟩ => show win3_1.index t (1 : Fin 2) * 64 ≤ (i 1).val ∧ (i 1).val < win3_1.index t (1 : Fin 2) * 64 + 64; rw [h1]; omega

/-- THE MEAN'S TABLE after the kernel: the running sum's table it was entered with, times 1/3. -/
theorem mean (c : Dev nD) :
    (dat3 V c).arrAt 1 cfg3.N = Perturb.third (V c main_v49_1) :=
  (dat3 V c).arrAt_eq_of_cover 1 _ (fun t _ => flushed1 V c t) cover1

end Cert.KernelIdeal.MeanKernel

end
-- ==== Proof.Stages.lean ====
/-
  The stages both programs share, named once, and the host's spelling of a layer and of the mean.

  Both programs stack the users' and the items' tables, and then three times: form the sparse product of the current
  embeddings (a gather of rows by column index, a scaling by the edge values, a scatter-add into rows by row index),
  take that layer's slab of the noise, and perturb. They keep a running sum of the three new embedding tables, take its
  mean, and split it back into the users' and the items' rows. The gather, the scatter, the stacking, the slabs and the
  split are the same operations on both sides, so they are named here and never opened.

  What is opened is the host's layer — the row norm as a sum over the columns, a square root, a column, a clamp, a
  spread along the rows; the quotient; the sign; the step; the sum — which at row r and column q is `Perturb.entry`
  of the propagated entry, the noise entry and the noise row's sum of squares; and the host's mean, a quotient by the
  word 3.0, which is the product with 1/3.
-/
import proofs.«167419_j51488067944789_1_alg».proof.Proof.Gen.ReferenceIdeal
import proofs.«167419_j51488067944789_1_alg».proof.Proof.LayerTable
import Idealize.ShloMosaic.Lib.ValueIdx
import Idealize.ShloMosaic.Lib.Pipeline.Value
import Idealize.ShloMosaic.PureOps.Ideal.Laws

noncomputable section

namespace Cert.ReferenceIdeal.Stages

open Cert.ReferenceIdeal Cert.ReferenceIdeal.Gen Idealize.ShloMosaic Idealize.ShloMosaic.ValueIdx

/-- The all-zero table: where the running sum starts, and what every sparse product is scattered into. -/
def zeros : FVec Ideal S150000x64 .f32 :=
  broadcastInDim S150000x64 ![] bcast_S_S150000x64 (constant (F := Ideal) S_ .f32 0x00000000#32)

/-- The users' and the items' tables stacked into one. -/
def joined (a0 : FVec Ideal S100000x64 .f32) (a1 : FVec Ideal S50000x64 .f32) : FVec Ideal S150000x64 .f32 :=
  concatenate S150000x64 0 [⟨S100000x64, a0⟩, ⟨S50000x64, a1⟩] concatenates_S100000x64_S50000x64_S150000x64_d0

/-- The sparse product: every edge k adds `vals k` times row `cols k` of `x` (a negative column counted from the
    end) into row `rows k` of a zero table. Both programs compute it by the same gather and scatter, so it is
    never opened here. -/
def spmm (x : FVec Ideal S150000x64 .f32) (vals : FVec Ideal S4000000 .f32) (rows cols : IVec S4000000 32) :
    FVec Ideal S150000x64 .f32 :=
  Host.scatterAdd scatter_S150000x64_S4000000x1_S4000000x64_1_0_0_1 zeros
    (broadcastInDim S4000000x1 ![0] bcast_S4000000_S4000000x1_0 rows)
    (mulf (broadcastInDim S4000000x64 ![0, 1] bcast_S4000000x1_S4000000x64_0_1
        (broadcastInDim S4000000x1 ![0] bcast_S4000000_S4000000x1_0 vals))
      (Host.gather gather_S150000x64_S4000000x1_S4000000x64_1_0_n_n_0_1_164 x
        (broadcastInDim S4000000x1 ![0] bcast_S4000000_S4000000x1_0
          (select (cmpi .slt cols (broadcastInDim S4000000 ![] bcast_S_S4000000 (constantI S_ 32 0#32)))
            (addi cols (broadcastInDim S4000000 ![] bcast_S_S4000000 (constantI S_ 32 150000#32))) cols))))

/-- Layer 0's, 1's and 2's noise tables: the three slabs of the noise argument. -/
def noise0 (noise : FVec Ideal S3x150000x64 .f32) : FVec Ideal S150000x64 .f32 :=
  shapeCast S150000x64 (extractStridedSlice S1x150000x64 ![0, 0, 0] noise slices_S3x150000x64_S1x150000x64_0_0_0) shapeCasts_S1x150000x64_S150000x64
def noise1 (noise : FVec Ideal S3x150000x64 .f32) : FVec Ideal S150000x64 .f32 :=
  shapeCast S150000x64 (extractStridedSlice S1x150000x64 ![1, 0, 0] noise slices_S3x150000x64_S1x150000x64_1_0_0) shapeCasts_S1x150000x64_S150000x64
def noise2 (noise : FVec Ideal S3x150000x64 .f32) : FVec Ideal S150000x64 .f32 :=
  shapeCast S150000x64 (extractStridedSlice S1x150000x64 ![2, 0, 0] noise slices_S3x150000x64_S1x150000x64_2_0_0) shapeCasts_S1x150000x64_S150000x64

/-- One layer as the host spells it: the row norm by a sum over the columns and a square root, kept as a column,
    clamped, spread back along the rows; the quotient; the sign; the step; the sum. -/
def hostLayer (sp nz : FVec Ideal S150000x64 .f32) : FVec Ideal S150000x64 .f32 :=
  addf sp (mulf (mulf (Host.sign sp)
      (Host.divf nz (broadcastInDim S150000x64 ![0, 1] bcast_S150000x1_S150000x64_0_1
        (maximumf (Host.sqrt (broadcastInDim S150000x1 ![0] bcast_S150000_S150000x1_0
            (Host.reduceAdd (mulf nz nz) (constant S_ .f32 0x00000000#32) reducesTo_S150000x64_S150000_d1 h_S_)))
          (broadcastInDim S150000x1 ![] bcast_S_S150000x1 (constant S_ .f32 0x2B8CBCCC#32))))))
    (broadcastInDim S150000x64 ![] bcast_S_S150000x64 (constant S_ .f32 0x3DCCCCCD#32)))

/-- The mean of the three layers as the host spells it: the running sum divided by the word 3.0. -/
def hostMean (acc : FVec Ideal S150000x64 .f32) : FVec Ideal S150000x64 .f32 :=
  Host.divf acc (broadcastInDim S150000x64 ![] bcast_S_S150000x64 (constant S_ .f32 0x40400000#32))

/-- The users' rows and the items' rows of a table. -/
def users (t : FVec Ideal S150000x64 .f32) : FVec Ideal S100000x64 .f32 :=
  extractStridedSlice S100000x64 ![0, 0] t slices_S150000x64_S100000x64_0_0
def items (t : FVec Ideal S150000x64 .f32) : FVec Ideal S50000x64 .f32 :=
  extractStridedSlice S50000x64 ![100000, 0] t slices_S150000x64_S50000x64_100000_0

/-- The host's sum over the columns of a table's squares, at row r: the sum over the row's 64 entries (it starts from
    the zero word). -/
theorem rowSqHost (x : FVec Ideal S150000x64 .f32) (r : Fin 150000) :
    Host.reduceAdd (mulf x x) (constant S_ .f32 0x00000000#32) reducesTo_S150000x64_S150000_d1 h_S_ (ix1 r)
      = ∑ k : Fin 64, x (ix2 r k) * x (ix2 r k) := by
  simp only [Host.reduceAdd, Ideal.hostReduceAdd_def]
  rw [Ideal.hostReduceAdd_single reducesTo_S150000x64_S150000_d1 (by decide)]
  rw [show (constant (F := Ideal) S_ .f32 0x00000000#32) (Shape.Idx.first h_S_) = 0 from Ideal.ofBits_zero_f32, zero_add]
  refine Finset.sum_congr rfl fun k _ => ?_
  exact congrArg (fun i => x i * x i) (funext fun a => Fin.ext (by match a with | ⟨0, _⟩ => rfl | ⟨1, _⟩ => rfl))

/-- The host's clamped row norm, kept as a column and spread back along the rows, at entry (r, q). -/
theorem normColHost (x : FVec Ideal S150000x64 .f32) (r : Fin 150000) (q : Fin 64) :
    broadcastInDim S150000x64 ![0, 1] bcast_S150000x1_S150000x64_0_1
        (maximumf (Host.sqrt (broadcastInDim S150000x1 ![0] bcast_S150000_S150000x1_0
            (Host.reduceAdd (mulf x x) (constant S_ .f32 0x00000000#32) reducesTo_S150000x64_S150000_d1 h_S_)))
          (broadcastInDim S150000x1 ![] bcast_S_S150000x1 (constant S_ .f32 0x2B8CBCCC#32))) (ix2 r q)
      = max (Ideal.sqrt (∑ k : Fin 64, x (ix2 r k) * x (ix2 r k))) (Ideal.ofBits .f32 0x2B8CBCCC#32) := by
  refine (broadcastInDim_apply _ bcast_S150000x1_S150000x64_0_1 _ (ix2 r q) (ix2 r (0 : Fin 1)) (fun a => match a with
    | ⟨0, _⟩ => by show r.val = if (150000 : Nat) = 1 then 0 else r.val; rw [if_neg (by decide)]
    | ⟨1, _⟩ => by show 0 = if (1 : Nat) = 1 then 0 else q.val; rw [if_pos rfl])).trans ?_
  have hmax : ∀ (a b : FVec Ideal S150000x1 .f32) (j : S150000x1.Idx), maximumf a b j = max (a j) (b j) := fun _ _ _ => rfl
  have hsqrt : ∀ (a : FVec Ideal S150000x1 .f32) (j : S150000x1.Idx), Host.sqrt a j = Ideal.sqrt (a j) := fun _ _ => rfl
  have hfloor : ∀ j : S150000x1.Idx,
      broadcastInDim S150000x1 ![] bcast_S_S150000x1 (constant (F := Ideal) S_ .f32 0x2B8CBCCC#32) j
        = Ideal.ofBits .f32 0x2B8CBCCC#32 := fun _ => rfl
  rw [hmax, hsqrt, hfloor,
    broadcastInDim_apply _ bcast_S150000_S150000x1_0 _ (ix2 r (0 : Fin 1)) (ix1 r) (fun a => match a with
      | ⟨0, _⟩ => by show r.val = if (150000 : Nat) = 1 then 0 else r.val; rw [if_neg (by decide)]),
    rowSqHost x r]

/-- THE HOST'S LAYER IS THE LAYER: at row r and column q the host's operations give `Perturb.entry` of the
    propagated entry, the noise entry and the sum of the squares of the noise row r. -/
theorem hostLayer_eq (sp nz : FVec Ideal S150000x64 .f32) : hostLayer sp nz = Perturb.layer sp nz := by
  funext i
  obtain ⟨r, q, rfl⟩ : ∃ (r : Fin 150000) (q : Fin 64), i = ix2 r q := ⟨i 0, i 1, eq_ix2 i⟩
  rw [Perturb.layer_apply]
  unfold hostLayer Perturb.entry
  have hadd : ∀ (a b : FVec Ideal S150000x64 .f32) (j : S150000x64.Idx), addf a b j = a j + b j := fun _ _ _ => rfl
  have hmul : ∀ (a b : FVec Ideal S150000x64 .f32) (j : S150000x64.Idx), mulf a b j = a j * b j := fun _ _ _ => rfl
  have hdiv : ∀ (a b : FVec Ideal S150000x64 .f32) (j : S150000x64.Idx), Host.divf a b j = Ideal.div (a j) (b j) := fun _ _ _ => rfl
  have hsign : ∀ (a : FVec Ideal S150000x64 .f32) (j : S150000x64.Idx), Host.sign a j = Ideal.sign (a j) := fun _ _ => rfl
  have hstep : ∀ j : S150000x64.Idx,
      broadcastInDim S150000x64 ![] bcast_S_S150000x64 (constant (F := Ideal) S_ .f32 0x3DCCCCCD#32) j
        = Ideal.ofBits .f32 0x3DCCCCCD#32 := fun _ => rfl
  rw [hadd, hmul, hmul, hsign, hdiv, hstep, normColHost nz r q]

/-- THE HOST'S MEAN IS A THIRD: dividing every entry by the word 3.0 multiplies it by the rational 1/3. -/
theorem hostMean_eq (acc : FVec Ideal S150000x64 .f32) : hostMean acc = Perturb.third acc := by
  funext i
  exact Perturb.div_three (acc i)

end Cert.ReferenceIdeal.Stages

end
-- ==== Proof.Embeddings.lean ====
/-
  What both programs compute, as one function of the six argument arrays.

  From the users' table `a0`, the items' table `a1`, the edge values `vals`, the noise `noise` and the edges' row and
  column indices: the first embeddings are the layer of the sparse product of the stacked tables with the first
  noise slab; the second are the layer of the sparse product of the first embeddings with the second slab; the third
  likewise from the second. The result is the mean of the three — their sum from a zero table, times 1/3 — split into
  the users' rows and the items' rows.
-/
import proofs.«167419_j51488067944789_1_alg».proof.Proof.Stages

noncomputable section

namespace Cert.ReferenceIdeal.Stages

open Cert.ReferenceIdeal Cert.ReferenceIdeal.Gen Idealize.ShloMosaic

variable (a0 : FVec Ideal S100000x64 .f32) (a1 : FVec Ideal S50000x64 .f32) (vals : FVec Ideal S4000000 .f32)
  (noise : FVec Ideal S3x150000x64 .f32) (rows cols : IVec S4000000 32)

/-- The embeddings after the first, second and third layer. -/
def emb1 : FVec Ideal S150000x64 .f32 := Perturb.layer (spmm (joined a0 a1) vals rows cols) (noise0 noise)
def emb2 : FVec Ideal S150000x64 .f32 := Perturb.layer (spmm (emb1 a0 a1 vals noise rows cols) vals rows cols) (noise1 noise)
def emb3 : FVec Ideal S150000x64 .f32 := Perturb.layer (spmm (emb2 a0 a1 vals noise rows cols) vals rows cols) (noise2 noise)

/-- The running sum after the three layers, from a zero table, in the order the layers run. -/
def sum3 : FVec Ideal S150000x64 .f32 :=
  addf (addf (addf zeros (emb1 a0 a1 vals noise rows cols)) (emb2 a0 a1 vals noise rows cols)) (emb3 a0 a1 vals noise rows cols)

/-- The mean of the three layers' embeddings. -/
def meanTable : FVec Ideal S150000x64 .f32 := Perturb.third (sum3 a0 a1 vals noise rows cols)

end Cert.ReferenceIdeal.Stages

end
-- ==== Proof.Fold.lean ====
/-
  The idealized kernel's buffers, segment by segment, as stages of the one computation.

  The program is eight segments: host operations, the first layer's kernel, host operations, the second layer's kernel,
  host operations, the third layer's kernel, the mean's kernel, and two slices. The contents every buffer holds at a
  segment boundary are the previous boundary's contents with that segment applied. Read at the buffers that matter:

    - the first stretch leaves the sparse product of the stacked tables, the first noise slab and a zero table; the
      first kernel turns them into the first embeddings and into zero plus the first embeddings;
    - the second stretch leaves the sparse product of the first embeddings and the second noise slab, and leaves the
      running sum alone; the second kernel gives the second embeddings and the sum of the first two;
    - the third stretch and kernel likewise give the third embeddings and the sum of all three;
    - the last kernel multiplies that sum by 1/3, and the two slices are its users' rows and its items' rows.

  No stretch and no kernel writes an argument array, so the sparse products and the noise slabs at every boundary are
  those of the arrays the program was launched with.
-/
import proofs.«167419_j51488067944789_1_alg».proof.Proof.Patched.KernelIdealFrame
import proofs.«167419_j51488067944789_1_alg».proof.Proof.Layer0
import proofs.«167419_j51488067944789_1_alg».proof.Proof.Layer1
import proofs.«167419_j51488067944789_1_alg».proof.Proof.Layer2
import proofs.«167419_j51488067944789_1_alg».proof.Proof.MeanKernel
import proofs.«167419_j51488067944789_1_alg».proof.Proof.Embeddings
import Idealize.ShloMosaic.Lib.StableHlo.Run

noncomputable section

namespace Cert.KernelIdeal.Fold

open Cert.KernelIdeal Cert.KernelIdeal.Gen Cert.KernelIdeal.GenP
open Idealize.ShloMosaic Idealize.ShloMosaic.TcCoe Idealize.SL.Sem Idealize.ShloMosaic.StableHlo
open Cert.ReferenceIdeal.Stages (zeros joined spmm noise0 noise1 noise2 users items emb1 emb2 emb3 sum3 meanTable)

/-! ## Each stretch of host operations, from any contents -/

section Stretches

variable (X : Valuation τ sig (Elt Ideal))

set_option maxHeartbeats 1000000 in
/-- The first stretch: the sparse product of the stacked tables. -/
theorem s0_sp : StableHlo.after hostOps0 X (Proc.devRef .tc main_v14)
    = spmm (joined (X (Proc.devRef .tc main_arg0)) (X (Proc.devRef .tc main_arg1))) (X (Proc.devRef .tc main_arg2)) (X (Proc.devRef .tc main_arg4)) (X (Proc.devRef .tc main_arg5)) := by
  after_results_simp
  rfl
/-- … the first noise slab … -/
theorem s0_nz : StableHlo.after hostOps0 X (Proc.devRef .tc main_v16) = noise0 (X (Proc.devRef .tc main_arg3)) := by
  after_results_simp
  rfl
/-- … and a zero table for the running sum. -/
theorem s0_zero : StableHlo.after hostOps0 X (Proc.devRef .tc main_v1) = zeros := by
  after_results_simp
  rfl
/-- It writes no argument array. -/
theorem s0_arg2 : StableHlo.after hostOps0 X (Proc.devRef .tc main_arg2) = X (Proc.devRef .tc main_arg2) := by after_results_simp
theorem s0_arg3 : StableHlo.after hostOps0 X (Proc.devRef .tc main_arg3) = X (Proc.devRef .tc main_arg3) := by after_results_simp
theorem s0_arg4 : StableHlo.after hostOps0 X (Proc.devRef .tc main_arg4) = X (Proc.devRef .tc main_arg4) := by after_results_simp
theorem s0_arg5 : StableHlo.after hostOps0 X (Proc.devRef .tc main_arg5) = X (Proc.devRef .tc main_arg5) := by after_results_simp

set_option maxHeartbeats 1000000 in
/-- The second stretch: the sparse product of the first kernel's embeddings … -/
theorem s1_sp : StableHlo.after hostOps1 X (Proc.devRef .tc main_v30)
    = spmm (X (Proc.devRef .tc main_v17_0)) (X (Proc.devRef .tc main_arg2)) (X (Proc.devRef .tc main_arg4)) (X (Proc.devRef .tc main_arg5)) := by
  after_results_simp
  rfl
/-- … and the second noise slab; the running sum and the arguments are left alone. -/
theorem s1_nz : StableHlo.after hostOps1 X (Proc.devRef .tc main_v32) = noise1 (X (Proc.devRef .tc main_arg3)) := by
  after_results_simp
  rfl
theorem s1_sum : StableHlo.after hostOps1 X (Proc.devRef .tc main_v17_1) = X (Proc.devRef .tc main_v17_1) := by after_results_simp
theorem s1_arg2 : StableHlo.after hostOps1 X (Proc.devRef .tc main_arg2) = X (Proc.devRef .tc main_arg2) := by after_results_simp
theorem s1_arg3 : StableHlo.after hostOps1 X (Proc.devRef .tc main_arg3) = X (Proc.devRef .tc main_arg3) := by after_results_simp
theorem s1_arg4 : StableHlo.after hostOps1 X (Proc.devRef .tc main_arg4) = X (Proc.devRef .tc main_arg4) := by after_results_simp
theorem s1_arg5 : StableHlo.after hostOps1 X (Proc.devRef .tc main_arg5) = X (Proc.devRef .tc main_arg5) := by after_results_simp

set_option maxHeartbeats 1000000 in
/-- The third stretch: the sparse product of the second kernel's embeddings … -/
theorem s2_sp : StableHlo.after hostOps2 X (Proc.devRef .tc main_v46)
    = spmm (X (Proc.devRef .tc main_v33_0)) (X (Proc.devRef .tc main_arg2)) (X (Proc.devRef .tc main_arg4)) (X (Proc.devRef .tc main_arg5)) := by
  after_results_simp
  rfl
/-- … and the third noise slab; the running sum is left alone. -/
theorem s2_nz : StableHlo.after hostOps2 X (Proc.devRef .tc main_v48) = noise2 (X (Proc.devRef .tc main_arg3)) := by
  after_results_simp
  rfl
theorem s2_sum : StableHlo.after hostOps2 X (Proc.devRef .tc main_v33_1) = X (Proc.devRef .tc main_v33_1) := by after_results_simp

/-- The last stretch: the users' rows and the items' rows of the mean's table. -/
theorem s4_users : StableHlo.after hostOps4 X (Proc.devRef .tc main_v51) = users (X (Proc.devRef .tc main_v50)) := by
  after_results_simp
  rfl
theorem s4_items : StableHlo.after hostOps4 X (Proc.devRef .tc main_v52) = items (X (Proc.devRef .tc main_v50)) := by
  after_results_simp
  rfl

end Stretches

/-! ## The boundaries, in order -/

variable (m : (ℓ : Loc nD τ sig) → Buf (Elt Ideal) ℓ) (ρ : Dev nD → PrngReg) (c : Dev nD)

/-- The argument arrays when the second stretch starts (after the first kernel) … -/
theorem arg2_at2 : W2 m ρ c (Proc.devRef .tc main_arg2) = (m ((c : Thread nD τ).loc main_arg2)) := (W2_of_ne m ρ c main_arg2 (by decide)).trans (s0_arg2 (W0 m ρ c))
theorem arg3_at2 : W2 m ρ c (Proc.devRef .tc main_arg3) = (m ((c : Thread nD τ).loc main_arg3)) := (W2_of_ne m ρ c main_arg3 (by decide)).trans (s0_arg3 (W0 m ρ c))
theorem arg4_at2 : W2 m ρ c (Proc.devRef .tc main_arg4) = (m ((c : Thread nD τ).loc main_arg4)) := (W2_of_ne m ρ c main_arg4 (by decide)).trans (s0_arg4 (W0 m ρ c))
theorem arg5_at2 : W2 m ρ c (Proc.devRef .tc main_arg5) = (m ((c : Thread nD τ).loc main_arg5)) := (W2_of_ne m ρ c main_arg5 (by decide)).trans (s0_arg5 (W0 m ρ c))
/-- … and when the third starts (after the second kernel). -/
theorem arg2_at4 : W4 m ρ c (Proc.devRef .tc main_arg2) = (m ((c : Thread nD τ).loc main_arg2)) :=
  (W4_of_ne m ρ c main_arg2 (by decide)).trans ((s1_arg2 (W2 m ρ c)).trans (arg2_at2 m ρ c))
theorem arg3_at4 : W4 m ρ c (Proc.devRef .tc main_arg3) = (m ((c : Thread nD τ).loc main_arg3)) :=
  (W4_of_ne m ρ c main_arg3 (by decide)).trans ((s1_arg3 (W2 m ρ c)).trans (arg3_at2 m ρ c))
theorem arg4_at4 : W4 m ρ c (Proc.devRef .tc main_arg4) = (m ((c : Thread nD τ).loc main_arg4)) :=
  (W4_of_ne m ρ c main_arg4 (by decide)).trans ((s1_arg4 (W2 m ρ c)).trans (arg4_at2 m ρ c))
theorem arg5_at4 : W4 m ρ c (Proc.devRef .tc main_arg5) = (m ((c : Thread nD τ).loc main_arg5)) :=
  (W4_of_ne m ρ c main_arg5 (by decide)).trans ((s1_arg5 (W2 m ρ c)).trans (arg5_at2 m ρ c))

/-- AFTER THE FIRST KERNEL: the first embeddings … -/
theorem emb1_at2 : W2 m ρ c (Proc.devRef .tc main_v17_0) = emb1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W2_arr m ρ c 3).trans ((Layer0.newEmb (V1 m ρ) c).trans
    (congrArg₂ Perturb.layer (s0_sp (W0 m ρ c)) (s0_nz (W0 m ρ c))))
/-- … and the running sum, zero plus the first embeddings. -/
theorem sum1_at2 : W2 m ρ c (Proc.devRef .tc main_v17_1)
    = (addf zeros (emb1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) : FVec Ideal S150000x64 .f32) :=
  (W2_arr m ρ c 4).trans ((Layer0.newSum (V1 m ρ) c).trans
    (congrArg₂ (fun x y : FVec Ideal S150000x64 .f32 => addf x y) (s0_zero (W0 m ρ c))
      (congrArg₂ Perturb.layer (s0_sp (W0 m ρ c)) (s0_nz (W0 m ρ c)))))

/-- Entering the second kernel: the sparse product of the first embeddings, the second slab, the running sum. -/
theorem sp_at3 : W3 m ρ c (Proc.devRef .tc main_v30) = spmm (emb1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg2)) (m ((c : Thread nD τ).loc main_arg4)) (m ((c : Thread nD τ).loc main_arg5)) :=
  (s1_sp (W2 m ρ c)).trans (by rw [emb1_at2 m ρ c, arg2_at2 m ρ c, arg4_at2 m ρ c, arg5_at2 m ρ c])
theorem nz_at3 : W3 m ρ c (Proc.devRef .tc main_v32) = noise1 (m ((c : Thread nD τ).loc main_arg3)) :=
  (s1_nz (W2 m ρ c)).trans (by rw [arg3_at2 m ρ c])
theorem sum_at3 : W3 m ρ c (Proc.devRef .tc main_v17_1)
    = (addf zeros (emb1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) : FVec Ideal S150000x64 .f32) :=
  (s1_sum (W2 m ρ c)).trans (sum1_at2 m ρ c)

/-- AFTER THE SECOND KERNEL: the second embeddings and the sum of the first two. -/
theorem emb2_at4 : W4 m ρ c (Proc.devRef .tc main_v33_0) = emb2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W4_arr m ρ c 3).trans ((Layer1.newEmb (V3 m ρ) c).trans
    (congrArg₂ Perturb.layer (sp_at3 m ρ c) (nz_at3 m ρ c)))
theorem sum2_at4 : W4 m ρ c (Proc.devRef .tc main_v33_1)
    = (addf (addf zeros (emb1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))) (emb2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) : FVec Ideal S150000x64 .f32) :=
  (W4_arr m ρ c 4).trans ((Layer1.newSum (V3 m ρ) c).trans
    (congrArg₂ (fun x y : FVec Ideal S150000x64 .f32 => addf x y) (sum_at3 m ρ c)
      (congrArg₂ Perturb.layer (sp_at3 m ρ c) (nz_at3 m ρ c))))

/-- Entering the third kernel. -/
theorem sp_at5 : W5 m ρ c (Proc.devRef .tc main_v46) = spmm (emb2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg2)) (m ((c : Thread nD τ).loc main_arg4)) (m ((c : Thread nD τ).loc main_arg5)) :=
  (s2_sp (W4 m ρ c)).trans (by rw [emb2_at4 m ρ c, arg2_at4 m ρ c, arg4_at4 m ρ c, arg5_at4 m ρ c])
theorem nz_at5 : W5 m ρ c (Proc.devRef .tc main_v48) = noise2 (m ((c : Thread nD τ).loc main_arg3)) :=
  (s2_nz (W4 m ρ c)).trans (by rw [arg3_at4 m ρ c])
theorem sum_at5 : W5 m ρ c (Proc.devRef .tc main_v33_1)
    = (addf (addf zeros (emb1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))) (emb2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) : FVec Ideal S150000x64 .f32) :=
  (s2_sum (W4 m ρ c)).trans (sum2_at4 m ρ c)

/-- AFTER THE THIRD KERNEL: the sum of the three layers' embeddings. -/
theorem sum3_at6 : W6 m ρ c (Proc.devRef .tc main_v49_1) = sum3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W6_arr m ρ c 4).trans ((Layer2.newSum (V5 m ρ) c).trans
    (congrArg₂ (fun x y : FVec Ideal S150000x64 .f32 => addf x y) (sum_at5 m ρ c)
      (congrArg₂ Perturb.layer (sp_at5 m ρ c) (nz_at5 m ρ c))))

/-- AFTER THE LAST KERNEL: the mean table. -/
theorem mean_at7 : W7 m ρ c (Proc.devRef .tc main_v50) = meanTable (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W7_arr m ρ c 1).trans ((MeanKernel.mean (V6 m ρ) c).trans (congrArg Perturb.third (sum3_at6 m ρ c)))

/-- THE TWO RESULTS: the users' rows and the items' rows of the mean table of the argument arrays. -/
theorem users_at8 : W8 m ρ c (Proc.devRef .tc main_v51) = users (meanTable (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
  (s4_users (W7 m ρ c)).trans (congrArg users (mean_at7 m ρ c))
theorem items_at8 : W8 m ρ c (Proc.devRef .tc main_v52) = items (meanTable (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
  (s4_items (W7 m ρ c)).trans (congrArg items (mean_at7 m ρ c))

end Cert.KernelIdeal.Fold

end
-- ==== Proof.RefValue.lean ====
/-
  The reference's two results are the users' and the items' rows of the mean table.

  The reference's run ends with each result at one long term: its operations composed over the argument arrays.
  That term is, stage for stage, the stacked tables, three sparse products, three layers as the host spells them, the
  running sum from a zero table, the quotient by 3.0, and a slice. Each host layer is the layer and the quotient is the
  product with 1/3, so the term is the mean table's rows.
-/
import proofs.«167419_j51488067944789_1_alg».proof.Proof.Gen.ReferenceIdeal.Run
import proofs.«167419_j51488067944789_1_alg».proof.Proof.Embeddings

noncomputable section

namespace Cert.ReferenceIdeal.RefValue

open Cert.ReferenceIdeal Cert.ReferenceIdeal.Gen Cert.ReferenceIdeal.Value Cert.ReferenceIdeal.Stages
open Idealize.ShloMosaic Idealize.ShloMosaic.TcCoe Idealize.SL.Sem

section Host

variable (a0 : FVec Ideal S100000x64 .f32) (a1 : FVec Ideal S50000x64 .f32) (vals : FVec Ideal S4000000 .f32)
  (noise : FVec Ideal S3x150000x64 .f32) (rows cols : IVec S4000000 32)

/-- The three layers' embeddings with every layer spelt by the host's operations. -/
def hostEmb1 : FVec Ideal S150000x64 .f32 := hostLayer (spmm (joined a0 a1) vals rows cols) (noise0 noise)
def hostEmb2 : FVec Ideal S150000x64 .f32 := hostLayer (spmm (hostEmb1 a0 a1 vals noise rows cols) vals rows cols) (noise1 noise)
def hostEmb3 : FVec Ideal S150000x64 .f32 := hostLayer (spmm (hostEmb2 a0 a1 vals noise rows cols) vals rows cols) (noise2 noise)

theorem hostEmb1_eq : hostEmb1 a0 a1 vals noise rows cols = emb1 a0 a1 vals noise rows cols := hostLayer_eq _ _
theorem hostEmb2_eq : hostEmb2 a0 a1 vals noise rows cols = emb2 a0 a1 vals noise rows cols := by
  unfold hostEmb2 emb2; rw [hostEmb1_eq, hostLayer_eq]
theorem hostEmb3_eq : hostEmb3 a0 a1 vals noise rows cols = emb3 a0 a1 vals noise rows cols := by
  unfold hostEmb3 emb3; rw [hostEmb2_eq, hostLayer_eq]

/-- The host's mean of the host's three layers is the mean table. -/
theorem hostMean_sum_eq :
    hostMean (addf (addf (addf zeros (hostEmb1 a0 a1 vals noise rows cols)) (hostEmb2 a0 a1 vals noise rows cols))
        (hostEmb3 a0 a1 vals noise rows cols))
      = meanTable a0 a1 vals noise rows cols := by
  rw [hostMean_eq, hostEmb1_eq, hostEmb2_eq, hostEmb3_eq]
  rfl

end Host

variable (m : (ℓ : Loc nD τ sig) → Buf (Elt Ideal) ℓ) (c : Dev nD)

/-- THE FIRST RESULT: the users' rows of the mean table of the argument arrays. -/
theorem users_eq :
    res_main_v82 (F := Ideal) m c
      = users (meanTable (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))) := by
  rw [← hostMean_sum_eq]
  unfold res_main_v82
  rfl

/-- THE SECOND RESULT: the items' rows of the same table. -/
theorem items_eq :
    res_main_v83 (F := Ideal) m c
      = items (meanTable (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))) := by
  rw [← hostMean_sum_eq]
  unfold res_main_v83
  rfl

end Cert.ReferenceIdeal.RefValue

end
-- ==== Proof.lean ====
/-
  A graph-propagation model with sign-aligned noise: the kernel program against its jnp reference, on the extended reals.

  Both programs stack the users' and the items' embedding tables into one table of 150000 rows by 64 columns and run
  three layers. A layer forms the sparse product of the current embeddings with the graph (every edge adds its value
  times the embedding row of its column into the row of its row index), then perturbs it: each row of that layer's noise
  is scaled to unit length (its norm kept above a small floor), given, entry by entry, the sign of the propagated entry,
  scaled by a fixed step, and added. The result is the mean of the three layers' embeddings, split back into the users'
  rows and the items' rows.

  The kernel program computes the sparse product on the host exactly as the reference does, and runs the perturbation and
  the running sum in a kernel over blocks of 3000 whole rows, then the mean in a second kernel that multiplies by a
  constant named 1/3 where the reference divides by 3. Rows do not interact in the perturbation, so the fifty blocks
  of a table are fifty restrictions of one function of the whole tables (Layer0, Layer1, Layer2, MeanKernel over
  LayerBlock and LayerTable); the kernel's sign, spelt by comparisons with zero, is the sign by the order, and the row
  norm's sum over the lanes is the host's sum over the columns (LayerBlock, Stages); dividing by 3 is multiplying by
  1/3 on every extended real (PerturbScalar). Segment by segment the kernel program's buffers are therefore the stages
  of the same computation (Fold), its run ends with the two results at the last segment's contents (NamedRun), and the
  reference's two result terms are the same two tables (RefValue). No step uses that the inputs are finite.
-/
import proofs.«167419_j51488067944789_1_alg».proof.Defs
import proofs.«167419_j51488067944789_1_alg».proof.Proof.Gen.Kernel
import proofs.«167419_j51488067944789_1_alg».proof.Proof.Gen.KernelIdeal
import proofs.«167419_j51488067944789_1_alg».proof.Proof.Gen.ReferenceIdeal
import proofs.«167419_j51488067944789_1_alg».proof.Proof.Gen.Pre_finite_inputs
import proofs.«167419_j51488067944789_1_alg».proof.Proof.Gen.ReferenceIdeal.Run
import proofs.«167419_j51488067944789_1_alg».proof.Proof.Patched.KernelFrame
import proofs.«167419_j51488067944789_1_alg».proof.Proof.Patched.KernelIdealFrame
import proofs.«167419_j51488067944789_1_alg».proof.Proof.NamedRun
import proofs.«167419_j51488067944789_1_alg».proof.Proof.Fold
import proofs.«167419_j51488067944789_1_alg».proof.Proof.RefValue
import Idealize.ShloMosaic.PureOps.IdealRules
import Idealize.ShloMosaic.Adequacy
import Idealize.ShloMosaic.Init

noncomputable section

namespace Cert.Proof

open Idealize.ShloMosaic Idealize.ShloMosaic.TcCoe Idealize.SL.Sem
open Cert.ReferenceIdeal.Stages (users items meanTable)

/-- The kernel program, as printed, runs and leaves its arguments alone. -/
theorem frame_k : Cert.frame_Kernel := fun m ρ _ => Cert.Kernel.GenP.frame m ρ

/-- So does its idealization. -/
theorem frame_ki : Cert.frame_KernelIdeal := fun m ρ _ => Cert.KernelIdeal.GenP.frame m ρ

/-- So does the reference: its run, with what it says of the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization's four rewrites: in each of the three layers the sign read off the sign bit became a comparison
    with zero, and the last kernel's constant 0.33333334 became the name of the rational 1/3. -/
theorem preserves : Cert.preserves_Kernel_KernelIdeal :=
  ⟨IdealRules.sign_bit.statement Cert.KernelIdeal.S3000x64 .f32,
   IdealRules.sign_bit.statement Cert.KernelIdeal.S3000x64 .f32,
   IdealRules.sign_bit.statement Cert.KernelIdeal.S3000x64 .f32,
   IdealRules.named_const.statement Cert.KernelIdeal.κ "inv_3" .f32 0x3EAAAAAB#32 ((1 / 3 : ℝ) : EReal) rfl⟩

/-- On the extended reals both programs end with the users' rows and the items' rows of the mean table of the argument
    arrays: the kernel program by its run and its buffers read segment by segment, the reference by its run and its two
    result terms; the arguments agree, so the tables are equal. -/
theorem algebraic : Cert.algebraic_KernelIdeal_ReferenceIdeal := by
  intro m ρ m' ρ' _ hagree
  refine ⟨fun c => users (meanTable
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))),
      fun c => items (meanTable
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))), ?_, ?_⟩
  · exact (θ_run Cert.KernelIdeal.defs _ _).mono
      (fun _ h c => ⟨(h c).1.trans (Cert.KernelIdeal.Fold.users_at8 m ρ c),
        (h c).2.1.trans (Cert.KernelIdeal.Fold.items_at8 m ρ c), (h c).2.2⟩)
      (Cert.KernelIdeal.NamedRun.run m ρ)
  · refine (θ_run Cert.ReferenceIdeal.defs _ _).mono (fun _ h c => ?_) (Cert.ReferenceIdeal.Value.run (F := Ideal) m' ρ')
    obtain ⟨e0, e1, e2, e3, e4, e5⟩ := hagree c
    refine ⟨((h c).1.trans (Cert.ReferenceIdeal.RefValue.users_eq m' c)).trans ?_,
      ((h c).2.1.trans (Cert.ReferenceIdeal.RefValue.items_eq m' c)).trans ?_, (h c).2.2⟩
    · rw [e0, e1, e2, e3, e4, e5]
    · rw [e0, e1, e2, e3, e4, e5]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
